-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S3072 : Shape := ⟨1, ![3072]⟩
abbrev S1x512x1024 : Shape := ⟨3, ![1, 512, 1024]⟩
abbrev S512x1024 : Shape := ⟨2, ![512, 1024]⟩
abbrev S512x3072 : Shape := ⟨2, ![512, 3072]⟩
abbrev S1x3072 : Shape := ⟨2, ![1, 3072]⟩
abbrev S8x1x2048 : Shape := ⟨3, ![8, 1, 2048]⟩
abbrev S8x2048x2048 : Shape := ⟨3, ![8, 2048, 2048]⟩
abbrev S1x2048x1024 : Shape := ⟨3, ![1, 2048, 1024]⟩
abbrev S1x1x512 : Shape := ⟨3, ![1, 1, 512]⟩
abbrev S1x2048x512 : Shape := ⟨3, ![1, 2048, 512]⟩
abbrev S2048x1024 : Shape := ⟨2, ![2048, 1024]⟩
abbrev S2048x512 : Shape := ⟨2, ![2048, 512]⟩
abbrev S512 : Shape := ⟨1, ![512]⟩
abbrev S1x512 : Shape := ⟨2, ![1, 512]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩

abbrev nBuf : Space → Nat
  | .hbm => 26
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S3072, .f32⟩
  | .hbm, ⟨19, _⟩ => ⟨S8x2048x1024, .bf16⟩
  | .hbm, ⟨20, _⟩ => ⟨S8x2048x1024, .bf16⟩
  | .hbm, ⟨21, _⟩ => ⟨S8x2048x1024, .bf16⟩
  | .hbm, ⟨22, _⟩ => ⟨S8x1x2048, .f32⟩
  | .hbm, ⟨23, _⟩ => ⟨S8x2048x2048, .bf16⟩
  | .hbm, ⟨24, _⟩ => ⟨S8x2048x1024, .f32⟩
  | .hbm, ⟨25, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3072, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1x512, .f32⟩
  | .local _ .vmem, ⟨15, _⟩ => ⟨S1x1x512, .f32⟩
  | .local _ .vmem, ⟨16, _⟩ => ⟨S1x2048x512, .bf16⟩
  | .local _ .vmem, ⟨17, _⟩ => ⟨S1x2048x512, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x1x2048, .f32⟩
  | .local _ .vmem, ⟨23, _⟩ => ⟨S1x1x2048, .f32⟩
  | .local _ .vmem, ⟨24, _⟩ => ⟨S1x512x1024, .f32⟩
  | .local _ .vmem, ⟨25, _⟩ => ⟨S1x512x1024, .f32⟩
  | .local _ .vmem, ⟨26, _⟩ => ⟨S1x512x2048, .f32⟩
  | .local _ .vmem, ⟨27, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11_0 : Ref sig .tc := ⟨.hbm, 22, rfl⟩
abbrev main_v11_1 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S1024x1024_S1024x1024_1_0 : S1024x1024.Transposes [1, 0] S1024x1024
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  bcast_S_S1024 : S_.BroadcastsInDim S1024 (![] : Fin 0 → Fin S1024.rank)
  concatenates_S1024_S1024_S1024_S3072_d0 : Shape.Concatenates [S1024, S1024, S1024] S3072 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x512_S512 : S2048x512.Reduces [0] S512
  shapeCasts_S512_S1x512 : S512.ShapeCasts S1x512
  broadcasts_S1x512_S2048x512 : S1x512.Broadcasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  shapeCasts_S512x2048_S1x512x2048 : S512x2048.ShapeCasts S1x512x2048
  dot_S512x1024_S1024x3072_S512x3072_1_0_0_1_n_n_wf : DotDims.WF S512x1024 S1024x3072 S512x3072 [1] [0] [0] [1] [] []
  dot_S2048x1024_S512x1024_S2048x512_1_1_0_0_n_n_wf : DotDims.WF S2048x1024 S512x1024 S2048x512 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .bf16 = 32 ∨ (Rect.block (s := S8x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .bf16 = 32 ∨ (Rect.block (s := S8x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .bf16 = 32 ∨ (Rect.block (s := S8x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .bf16 = 32 ∨ (Rect.block (s := S8x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S8x1x2048.size a
  hwx1_2 : ∀ i : grid1.Coords, EltTy.bits .f32 = 32 ∨ (Rect.block (s := S8x1x2048) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S8x2048x2048.size a
  hwx1_3 : ∀ i : grid1.Coords, EltTy.bits .bf16 = 32 ∨ (Rect.block (s := S8x2048x2048) S1x2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x2048.size a ≤ S8x2048x2048.size a
  hwx2_0 : ∀ i : grid2.Coords, EltTy.bits .bf16 = 32 ∨ (Rect.block (s := S8x2048x2048) S1x512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S8x2048x1024.size a
  hwx2_1 : ∀ i : grid2.Coords, EltTy.bits .bf16 = 32 ∨ (Rect.block (s := S8x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048.size a ≤ S8x1x2048.size a
  hwx2_2 : ∀ i : grid2.Coords, EltTy.bits .f32 = 32 ∨ (Rect.block (s := S8x1x2048) S1x1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x2048x1024.size a
  hwx2_3 : ∀ i : grid2.Coords, EltTy.bits .f32 = 32 ∨ (Rect.block (s := S8x2048x1024) S1x512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x2048.size a ≤ S8x2048x2048.size a
  hwx2_4 : ∀ i : grid2.Coords, EltTy.bits .f32 = 32 ∨ (Rect.block (s := S8x2048x2048) S1x512x2048.size (cc2_transform_4 i) (hinb2_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10_0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S1x1x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S1x2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11_1) S1x512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_2) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_0) S1x1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12_0) S1x512x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_1) S1x512x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BitsRegion0.lean ====
/-
  Region 0 of @main (the projection kernel: one block of x against the concatenated weights and bias, writing a block of each of q, k, v) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.Kernel.Launch
import proofs.«150409_j20710332301555_2_alg».proof.Proof.Gen.Kernel.Skeleton
import proofs.«150409_j20710332301555_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the block index of the point before), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the block index of the point before), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the block index of the point before), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through the whole block -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0

/-- Output window 3's staging buffer after the body, from the input windows' blocks: its one store, of the
    body's pure result, through the whole block. -/
def out0_3 (x0 : Vec F S1x512x1024 .f32) (x1 : Vec F S1024x3072 .bf16) (x2 : Vec F S3072 .f32) : Vec F S1x512x1024 .bf16 :=
  View.canon [⟨r0_0, k0_pay2 (View.ld x0 r0_0) (View.ld x1 r0_1) (View.ld x2 r0_2)⟩]

/-- That store covers the buffer. -/
theorem cover0_3 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Output window 4's staging buffer after the body, from the input windows' blocks: its one store, of the
    body's pure result, through the whole block. -/
def out0_4 (x0 : Vec F S1x512x1024 .f32) (x1 : Vec F S1024x3072 .bf16) (x2 : Vec F S3072 .f32) : Vec F S1x512x1024 .bf16 :=
  View.canon [⟨r0_0, k0_pay3 (View.ld x0 r0_0) (View.ld x1 r0_1) (View.ld x2 r0_2)⟩]

/-- That store covers the buffer. -/
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Output window 5's staging buffer after the body, from the input windows' blocks: its one store, of the
    body's pure result, through the whole block. -/
def out0_5 (x0 : Vec F S1x512x1024 .f32) (x1 : Vec F S1024x3072 .bf16) (x2 : Vec F S3072 .f32) : Vec F S1x512x1024 .bf16 :=
  View.canon [⟨r0_0, k0_pay4 (View.ld x0 r0_0) (View.ld x1 r0_1) (View.ld x2 r0_2)⟩]

/-- That store covers the buffer. -/
theorem cover0_5 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

set_option maxHeartbeats 4000000 in
/-- The body on whole staging memrefs, the inputs' at read contents `xW` and the outputs' at anything, runs to the
    continuation holding the inputs' as they were and each output's at `out0_W` of the inputs'. -/
theorem sound_kernel0 (c : Dev nD) (E : Set ℕ) (i : grid0.Coords) (arg0 : Memref sig .tc .vmem S1x512x1024 .f32) (harg0 : arg0.IsWhole) (arg1 : Memref sig .tc .vmem S1024x3072 .bf16) (harg1 : arg1.IsWhole) (arg2 : Memref sig .tc .vmem S3072 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (x0 : Vec F S1x512x1024 .f32) (x1 : Vec F S1024x3072 .bf16) (x2 : Vec F S3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2)) -∗ K ⟨⟩))
      ⊢ wp frame (wpE (defs₀ (F := F)) Variants.none c none) E (cc0__proj_kernel i arg0 harg0 arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and each output's at the body's result of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.BitsRegion1.lean ====
/-
  Region 1 of @main (the statistics kernel: all queries of a batch against one block of keys, writing the reciprocal column sums and the numerators of that key block) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.Kernel.Launch
import proofs.«150409_j20710332301555_2_alg».proof.Proof.Gen.Kernel.Skeleton
import proofs.«150409_j20710332301555_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    point has the block index of the point before), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    point has the block index of the point before), for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store goes through the whole block -/

abbrev r1_0 : Rect S1x2048x1024 := Rect.unit (s := S1x2048x1024) ![0, 0, 0] S1x2048x1024.size inb_S1x2048x1024_S1x2048x1024_0_0_0
abbrev r1_1 : Rect S1x512x1024 := Rect.unit (s := S1x512x1024) ![0, 0, 0] S1x512x1024.size inb_S1x512x1024_S1x512x1024_0_0_0
abbrev r1_2 : Rect S1x1x512 := Rect.unit (s := S1x1x512) ![0, 0, 0] S1x1x512.size inb_S1x1x512_S1x1x512_0_0_0
abbrev r1_3 : Rect S1x2048x512 := Rect.unit (s := S1x2048x512) ![0, 0, 0] S1x2048x512.size inb_S1x2048x512_S1x2048x512_0_0_0

/-- Output window 2's staging buffer after the body, from the input windows' blocks: its one store, of the
    body's pure result, through the whole block. -/
def out1_2 (x0 : Vec F S1x2048x1024 .bf16) (x1 : Vec F S1x512x1024 .bf16) : Vec F S1x1x512 .f32 :=
  View.canon [⟨r1_2, k1_pay2 (View.ld x0 r1_0) (View.ld x1 r1_1)⟩]

/-- That store covers the buffer. -/
theorem cover1_2 (p0 : Vec F S1x1x512 .f32) (y : S1x1x512.Idx) :
    ∃ pc ∈ ([⟨r1_2, p0⟩] : List (View.Piece (Elt F) S1x1x512 .f32)), y ∈ pc.1.set :=
  View.cover_of_tiled [⟨r1_2, p0⟩] S1x1x512.size (by rfl) y

/-- Output window 3's staging buffer after the body, from the input windows' blocks: its one store, of the
    body's pure result, through the whole block. -/
def out1_3 (x0 : Vec F S1x2048x1024 .bf16) (x1 : Vec F S1x512x1024 .bf16) : Vec F S1x2048x512 .bf16 :=
  View.canon [⟨r1_3, k1_pay3 (View.ld x0 r1_0) (View.ld x1 r1_1)⟩]

/-- That store covers the buffer. -/
theorem cover1_3 (p0 : Vec F S1x2048x512 .bf16) (y : S1x2048x512.Idx) :
    ∃ pc ∈ ([⟨r1_3, p0⟩] : List (View.Piece (Elt F) S1x2048x512 .bf16)), y ∈ pc.1.set :=
  View.cover_of_tiled [⟨r1_3, p0⟩] S1x2048x512.size (by rfl) y

set_option maxHeartbeats 4000000 in
/-- The body on whole staging memrefs, the inputs' at read contents `xW` and the outputs' at anything, runs to the
    continuation holding the inputs' as they were and each output's at `out1_W` of the inputs'. -/
theorem sound_kernel1 (c : Dev nD) (E : Set ℕ) (i : grid1.Coords) (arg0 : Memref sig .tc .vmem S1x2048x1024 .bf16) (harg0 : arg0.IsWhole) (arg1 : Memref sig .tc .vmem S1x512x1024 .bf16) (harg1 : arg1.IsWhole) (arg2 : Memref sig .tc .vmem S1x1x512 .f32) (harg2 : arg2.IsWhole) (arg3 : Memref sig .tc .vmem S1x2048x512 .bf16) (harg3 : arg3.IsWhole)
    (x0 : Vec F S1x2048x1024 .bf16) (x1 : Vec F S1x512x1024 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1__stats_kernel i arg0 harg0 arg1 harg1 arg2 harg2 arg3 harg3) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and each output's at the body's result of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.BitsRegion2.lean ====
/-
  Region 2 of @main (the final kernel: one block of numerator rows against the reciprocal column sums and all values of a batch, writing a block of the weights and of the output) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.Kernel.Launch
import proofs.«150409_j20710332301555_2_alg».proof.Proof.Gen.Kernel.Skeleton
import proofs.«150409_j20710332301555_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store goes through the whole block -/

abbrev r2_0 : Rect S1x512x2048 := Rect.unit (s := S1x512x2048) ![0, 0, 0] S1x512x2048.size inb_S1x512x2048_S1x512x2048_0_0_0
abbrev r2_1 : Rect S1x2048x1024 := Rect.unit (s := S1x2048x1024) ![0, 0, 0] S1x2048x1024.size inb_S1x2048x1024_S1x2048x1024_0_0_0
abbrev r2_2 : Rect S1x1x2048 := Rect.unit (s := S1x1x2048) ![0, 0, 0] S1x1x2048.size inb_S1x1x2048_S1x1x2048_0_0_0
abbrev r2_3 : Rect S1x512x1024 := Rect.unit (s := S1x512x1024) ![0, 0, 0] S1x512x1024.size inb_S1x512x1024_S1x512x1024_0_0_0

/-- Output window 3's staging buffer after the body, from the input windows' blocks: its one store, of the
    body's pure result, through the whole block. -/
def out2_3 (x0 : Vec F S1x512x2048 .bf16) (x1 : Vec F S1x2048x1024 .bf16) (x2 : Vec F S1x1x2048 .f32) : Vec F S1x512x1024 .f32 :=
  View.canon [⟨r2_3, k2_pay3 (View.ld x0 r2_0) (View.ld x1 r2_1) (View.ld x2 r2_2)⟩]

/-- That store covers the buffer. -/
theorem cover2_3 (p0 : Vec F S1x512x1024 .f32) (y : S1x512x1024.Idx) :
    ∃ pc ∈ ([⟨r2_3, p0⟩] : List (View.Piece (Elt F) S1x512x1024 .f32)), y ∈ pc.1.set :=
  View.cover_of_tiled [⟨r2_3, p0⟩] S1x512x1024.size (by rfl) y

/-- Output window 4's staging buffer after the body, from the input windows' blocks: its one store, of the
    body's pure result, through the whole block. -/
def out2_4 (x0 : Vec F S1x512x2048 .bf16) (x1 : Vec F S1x2048x1024 .bf16) (x2 : Vec F S1x1x2048 .f32) : Vec F S1x512x2048 .f32 :=
  View.canon [⟨r2_0, k2_pay2 (View.ld x0 r2_0) (View.ld x2 r2_2)⟩]

/-- That store covers the buffer. -/
theorem cover2_4 (p0 : Vec F S1x512x2048 .f32) (y : S1x512x2048.Idx) :
    ∃ pc ∈ ([⟨r2_0, p0⟩] : List (View.Piece (Elt F) S1x512x2048 .f32)), y ∈ pc.1.set :=
  View.cover_of_tiled [⟨r2_0, p0⟩] S1x512x2048.size (by rfl) y

set_option maxHeartbeats 4000000 in
/-- The body on whole staging memrefs, the inputs' at read contents `xW` and the outputs' at anything, runs to the
    continuation holding the inputs' as they were and each output's at `out2_W` of the inputs'. -/
theorem sound_kernel2 (c : Dev nD) (E : Set ℕ) (i : grid2.Coords) (arg0 : Memref sig .tc .vmem S1x512x2048 .bf16) (harg0 : arg0.IsWhole) (arg1 : Memref sig .tc .vmem S1x2048x1024 .bf16) (harg1 : arg1.IsWhole) (arg2 : Memref sig .tc .vmem S1x1x2048 .f32) (harg2 : arg2.IsWhole) (arg3 : Memref sig .tc .vmem S1x512x1024 .f32) (harg3 : arg3.IsWhole) (arg4 : Memref sig .tc .vmem S1x512x2048 .f32) (harg4 : arg4.IsWhole)
    (x0 : Vec F S1x512x2048 .bf16) (x1 : Vec F S1x2048x1024 .bf16) (x2 : Vec F S1x1x2048 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2) ∗ owns (c : Thread nD τ) arg4 fullShare (out2_4 x0 x1 x2)) -∗ K ⟨⟩))
      ⊢ wp frame (wpE (defs₀ (F := F)) Variants.none c none) E (cc2__final_kernel i arg0 harg0 arg1 harg1 arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer at its block and each output's at the body's result of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.BitsRun.lean ====
/-
  The run of @main as four segments: the host operations before the first kernel, then the three kernel regions back to
  back. The contents of every unscoped buffer at each segment boundary are a fold from the launch memory: the host
  stretch's operations applied in order, then per region its windows' arrays at what its write-backs leave and every other
  buffer as entered. The launch theorem for a list of segments then gives: every weakly fair execution terminates, faults
  nowhere, and ends with every unscoped buffer at the last boundary's contents. Stated for any float instance `F`.
-/
import proofs.«150409_j20710332301555_2_alg».proof.Proof.BitsRegion0
import proofs.«150409_j20710332301555_2_alg».proof.Proof.BitsRegion1
import proofs.«150409_j20710332301555_2_alg».proof.Proof.BitsRegion2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment over the thread state "every unscoped buffer at the boundary's contents, the generator register
    at some state, nothing owed": entered at `W1`, left at `W2`. Its arrays are split out of the unscoped buffers on
    entry and put back at what the write-backs leave on exit; the generator register goes into the class invariant and
    comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state "every unscoped buffer at the boundary's contents, the generator register
    at some state, nothing owed": entered at `W2`, left at `W3`. Its arrays are split out of the unscoped buffers on
    entry and put back at what the write-backs leave on exit; the generator register goes into the class invariant and
    comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state "every unscoped buffer at the boundary's contents, the generator register
    at some state, nothing owed": entered at `W3`, left at `W4`. Its arrays are split out of the unscoped buffers on
    entry and put back at what the write-backs leave on exit; the generator register goes into the class invariant and
    comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state holds every unscoped buffer of every core at the last boundary's contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Gen

end
-- ==== Proof.BitsFrames.lean ====
/-
  The argument arrays end as launched: none of the host operations writes an argument (they write the transposes, the
  scaled and concatenated weights and bias), no region writes one (region 0 reads the activations through an input
  window; the weights and biases are used only by the host operations), so the fold of boundary contents at an argument's
  buffer walks back to the launch memory. With the run this is the frame claim, at any float instance.
-/
import proofs.«150409_j20710332301555_2_alg».proof.Proof.BitsRun

set_option maxRecDepth 16384

noncomputable section

namespace Cert.Kernel.Gen

open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ)

/-- The references the host operations write. -/
abbrev hostW : List (Ref sig .tc) := [main_v0, main_v1, main_v2, main_cst, main_v3, main_v4, main_v5, main_v6, main_cst_0, main_v7, main_v8, main_v9]
theorem hostOps0_writes_sub : (hostOps0 : List (HloOp τ sig (Elt F))).Forall fun op => op.writes ⊆ (hostW.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.nary_writes, Finset.singleton_subset_iff, List.mem_toFinset]; exact List.mem_map_of_mem (by decide))
/-- A buffer no host operation writes holds after them what it held at launch. -/
theorem W1_of (c : Dev nD) (r : Ref sig .tc) (h : r ∉ hostW) : W1 m c r = W0 m c r :=
  StableHlo.after_of_writes_sub hostOps0 _ hostOps0_writes_sub h

/-- The activations reach the end as launched: no host operation writes them, region 0 reads them through an input window
    (whose array the pipeline leaves as entered), regions 1 and 2 do not touch them. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩)
    (run_all m ρ)

end Cert.Kernel.Gen

end
-- ==== Proof.Region0.lean ====
/-
  Region 0 of @main (the projection kernel: one block of x against the concatenated weights and bias, writing a block of each of q, k, v) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.KernelIdeal.Launch
import proofs.«150409_j20710332301555_2_alg».proof.Proof.Gen.KernelIdeal.Skeleton
import proofs.«150409_j20710332301555_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the block index of the point before), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the block index of the point before), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the block index of the point before), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through the whole block -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0

/-- Output window 3's staging buffer after the body, from the input windows' blocks: its one store, of the
    body's pure result, through the whole block. -/
def out0_3 (x0 : Vec F S1x512x1024 .f32) (x1 : Vec F S1024x3072 .bf16) (x2 : Vec F S3072 .f32) : Vec F S1x512x1024 .bf16 :=
  View.canon [⟨r0_0, k0_pay2 (View.ld x0 r0_0) (View.ld x1 r0_1) (View.ld x2 r0_2)⟩]

/-- That store covers the buffer. -/
theorem cover0_3 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Output window 4's staging buffer after the body, from the input windows' blocks: its one store, of the
    body's pure result, through the whole block. -/
def out0_4 (x0 : Vec F S1x512x1024 .f32) (x1 : Vec F S1024x3072 .bf16) (x2 : Vec F S3072 .f32) : Vec F S1x512x1024 .bf16 :=
  View.canon [⟨r0_0, k0_pay3 (View.ld x0 r0_0) (View.ld x1 r0_1) (View.ld x2 r0_2)⟩]

/-- That store covers the buffer. -/
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Output window 5's staging buffer after the body, from the input windows' blocks: its one store, of the
    body's pure result, through the whole block. -/
def out0_5 (x0 : Vec F S1x512x1024 .f32) (x1 : Vec F S1024x3072 .bf16) (x2 : Vec F S3072 .f32) : Vec F S1x512x1024 .bf16 :=
  View.canon [⟨r0_0, k0_pay4 (View.ld x0 r0_0) (View.ld x1 r0_1) (View.ld x2 r0_2)⟩]

/-- That store covers the buffer. -/
theorem cover0_5 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

set_option maxHeartbeats 4000000 in
/-- The body on whole staging memrefs, the inputs' at read contents `xW` and the outputs' at anything, runs to the
    continuation holding the inputs' as they were and each output's at `out0_W` of the inputs'. -/
theorem sound_kernel0 (c : Dev nD) (E : Set ℕ) (i : grid0.Coords) (arg0 : Memref sig .tc .vmem S1x512x1024 .f32) (harg0 : arg0.IsWhole) (arg1 : Memref sig .tc .vmem S1024x3072 .bf16) (harg1 : arg1.IsWhole) (arg2 : Memref sig .tc .vmem S3072 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (x0 : Vec F S1x512x1024 .f32) (x1 : Vec F S1024x3072 .bf16) (x2 : Vec F S3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2)) -∗ K ⟨⟩))
      ⊢ wp frame (wpE (defs₀ (F := F)) Variants.none c none) E (cc0__proj_kernel i arg0 harg0 arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and each output's at the body's result of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region1.lean ====
/-
  Region 1 of @main (the statistics kernel: all queries of a batch against one block of keys, writing the reciprocal column sums and the numerators of that key block) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.KernelIdeal.Launch
import proofs.«150409_j20710332301555_2_alg».proof.Proof.Gen.KernelIdeal.Skeleton
import proofs.«150409_j20710332301555_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    point has the block index of the point before), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    point has the block index of the point before), for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store goes through the whole block -/

abbrev r1_0 : Rect S1x2048x1024 := Rect.unit (s := S1x2048x1024) ![0, 0, 0] S1x2048x1024.size inb_S1x2048x1024_S1x2048x1024_0_0_0
abbrev r1_1 : Rect S1x512x1024 := Rect.unit (s := S1x512x1024) ![0, 0, 0] S1x512x1024.size inb_S1x512x1024_S1x512x1024_0_0_0
abbrev r1_2 : Rect S1x1x512 := Rect.unit (s := S1x1x512) ![0, 0, 0] S1x1x512.size inb_S1x1x512_S1x1x512_0_0_0
abbrev r1_3 : Rect S1x2048x512 := Rect.unit (s := S1x2048x512) ![0, 0, 0] S1x2048x512.size inb_S1x2048x512_S1x2048x512_0_0_0

/-- Output window 2's staging buffer after the body, from the input windows' blocks: its one store, of the
    body's pure result, through the whole block. -/
def out1_2 (x0 : Vec F S1x2048x1024 .bf16) (x1 : Vec F S1x512x1024 .bf16) : Vec F S1x1x512 .f32 :=
  View.canon [⟨r1_2, k1_pay2 (View.ld x0 r1_0) (View.ld x1 r1_1)⟩]

/-- That store covers the buffer. -/
theorem cover1_2 (p0 : Vec F S1x1x512 .f32) (y : S1x1x512.Idx) :
    ∃ pc ∈ ([⟨r1_2, p0⟩] : List (View.Piece (Elt F) S1x1x512 .f32)), y ∈ pc.1.set :=
  View.cover_of_tiled [⟨r1_2, p0⟩] S1x1x512.size (by rfl) y

/-- Output window 3's staging buffer after the body, from the input windows' blocks: its one store, of the
    body's pure result, through the whole block. -/
def out1_3 (x0 : Vec F S1x2048x1024 .bf16) (x1 : Vec F S1x512x1024 .bf16) : Vec F S1x2048x512 .bf16 :=
  View.canon [⟨r1_3, k1_pay3 (View.ld x0 r1_0) (View.ld x1 r1_1)⟩]

/-- That store covers the buffer. -/
theorem cover1_3 (p0 : Vec F S1x2048x512 .bf16) (y : S1x2048x512.Idx) :
    ∃ pc ∈ ([⟨r1_3, p0⟩] : List (View.Piece (Elt F) S1x2048x512 .bf16)), y ∈ pc.1.set :=
  View.cover_of_tiled [⟨r1_3, p0⟩] S1x2048x512.size (by rfl) y

set_option maxHeartbeats 4000000 in
/-- The body on whole staging memrefs, the inputs' at read contents `xW` and the outputs' at anything, runs to the
    continuation holding the inputs' as they were and each output's at `out1_W` of the inputs'. -/
theorem sound_kernel1 (c : Dev nD) (E : Set ℕ) (i : grid1.Coords) (arg0 : Memref sig .tc .vmem S1x2048x1024 .bf16) (harg0 : arg0.IsWhole) (arg1 : Memref sig .tc .vmem S1x512x1024 .bf16) (harg1 : arg1.IsWhole) (arg2 : Memref sig .tc .vmem S1x1x512 .f32) (harg2 : arg2.IsWhole) (arg3 : Memref sig .tc .vmem S1x2048x512 .bf16) (harg3 : arg3.IsWhole)
    (x0 : Vec F S1x2048x1024 .bf16) (x1 : Vec F S1x512x1024 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1__stats_kernel i arg0 harg0 arg1 harg1 arg2 harg2 arg3 harg3) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and each output's at the body's result of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Region2.lean ====
/-
  Region 2 of @main (the final kernel: one block of numerator rows against the reciprocal column sums and all values of a batch, writing a block of the weights and of the output) at an arbitrary valuation `V` of the core's buffers on entry: each window's block at a grid
  point read off its array, what the body's stores leave in each output window's staging buffer as a function of the
  input blocks, the body's triple, the pipeline's proof data (arrays as found; after the body each input's buffer at
  its block and each output's at the body's result; nothing owed), and the body obligation at every point.
  Stated for any float instance `F`.
-/
import proofs.«150409_j20710332301555_2_alg».proof.Proof.Gen.KernelIdeal.Launch
import proofs.«150409_j20710332301555_2_alg».proof.Proof.Gen.KernelIdeal.Skeleton
import proofs.«150409_j20710332301555_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store goes through the whole block -/

abbrev r2_0 : Rect S1x512x2048 := Rect.unit (s := S1x512x2048) ![0, 0, 0] S1x512x2048.size inb_S1x512x2048_S1x512x2048_0_0_0
abbrev r2_1 : Rect S1x2048x1024 := Rect.unit (s := S1x2048x1024) ![0, 0, 0] S1x2048x1024.size inb_S1x2048x1024_S1x2048x1024_0_0_0
abbrev r2_2 : Rect S1x1x2048 := Rect.unit (s := S1x1x2048) ![0, 0, 0] S1x1x2048.size inb_S1x1x2048_S1x1x2048_0_0_0
abbrev r2_3 : Rect S1x512x1024 := Rect.unit (s := S1x512x1024) ![0, 0, 0] S1x512x1024.size inb_S1x512x1024_S1x512x1024_0_0_0

/-- Output window 3's staging buffer after the body, from the input windows' blocks: its one store, of the
    body's pure result, through the whole block. -/
def out2_3 (x0 : Vec F S1x512x2048 .bf16) (x1 : Vec F S1x2048x1024 .bf16) (x2 : Vec F S1x1x2048 .f32) : Vec F S1x512x1024 .f32 :=
  View.canon [⟨r2_3, k2_pay3 (View.ld x0 r2_0) (View.ld x1 r2_1) (View.ld x2 r2_2)⟩]

/-- That store covers the buffer. -/
theorem cover2_3 (p0 : Vec F S1x512x1024 .f32) (y : S1x512x1024.Idx) :
    ∃ pc ∈ ([⟨r2_3, p0⟩] : List (View.Piece (Elt F) S1x512x1024 .f32)), y ∈ pc.1.set :=
  View.cover_of_tiled [⟨r2_3, p0⟩] S1x512x1024.size (by rfl) y

/-- Output window 4's staging buffer after the body, from the input windows' blocks: its one store, of the
    body's pure result, through the whole block. -/
def out2_4 (x0 : Vec F S1x512x2048 .bf16) (x1 : Vec F S1x2048x1024 .bf16) (x2 : Vec F S1x1x2048 .f32) : Vec F S1x512x2048 .f32 :=
  View.canon [⟨r2_0, k2_pay2 (View.ld x0 r2_0) (View.ld x2 r2_2)⟩]

/-- That store covers the buffer. -/
theorem cover2_4 (p0 : Vec F S1x512x2048 .f32) (y : S1x512x2048.Idx) :
    ∃ pc ∈ ([⟨r2_0, p0⟩] : List (View.Piece (Elt F) S1x512x2048 .f32)), y ∈ pc.1.set :=
  View.cover_of_tiled [⟨r2_0, p0⟩] S1x512x2048.size (by rfl) y

set_option maxHeartbeats 4000000 in
/-- The body on whole staging memrefs, the inputs' at read contents `xW` and the outputs' at anything, runs to the
    continuation holding the inputs' as they were and each output's at `out2_W` of the inputs'. -/
theorem sound_kernel2 (c : Dev nD) (E : Set ℕ) (i : grid2.Coords) (arg0 : Memref sig .tc .vmem S1x512x2048 .bf16) (harg0 : arg0.IsWhole) (arg1 : Memref sig .tc .vmem S1x2048x1024 .bf16) (harg1 : arg1.IsWhole) (arg2 : Memref sig .tc .vmem S1x1x2048 .f32) (harg2 : arg2.IsWhole) (arg3 : Memref sig .tc .vmem S1x512x1024 .f32) (harg3 : arg3.IsWhole) (arg4 : Memref sig .tc .vmem S1x512x2048 .f32) (harg4 : arg4.IsWhole)
    (x0 : Vec F S1x512x2048 .bf16) (x1 : Vec F S1x2048x1024 .bf16) (x2 : Vec F S1x1x2048 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2) ∗ owns (c : Thread nD τ) arg4 fullShare (out2_4 x0 x1 x2)) -∗ K ⟨⟩))
      ⊢ wp frame (wpE (defs₀ (F := F)) Variants.none c none) E (cc2__final_kernel i arg0 harg0 arg1 harg1 arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer at its block and each output's at the body's result of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Run.lean ====
/-
  The run of @main as four segments: the host operations before the first kernel, then the three kernel regions back to
  back. The contents of every unscoped buffer at each segment boundary are a fold from the launch memory: the host
  stretch's operations applied in order, then per region its windows' arrays at what its write-backs leave and every other
  buffer as entered. The launch theorem for a list of segments then gives: every weakly fair execution terminates, faults
  nowhere, and ends with every unscoped buffer at the last boundary's contents. Stated for any float instance `F`.
-/
import proofs.«150409_j20710332301555_2_alg».proof.Proof.Region0
import proofs.«150409_j20710332301555_2_alg».proof.Proof.Region1
import proofs.«150409_j20710332301555_2_alg».proof.Proof.Region2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, each output's write-backs folded),
    every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment over the thread state "every unscoped buffer at the boundary's contents, the generator register
    at some state, nothing owed": entered at `W1`, left at `W2`. Its arrays are split out of the unscoped buffers on
    entry and put back at what the write-backs leave on exit; the generator register goes into the class invariant and
    comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state "every unscoped buffer at the boundary's contents, the generator register
    at some state, nothing owed": entered at `W2`, left at `W3`. Its arrays are split out of the unscoped buffers on
    entry and put back at what the write-backs leave on exit; the generator register goes into the class invariant and
    comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state "every unscoped buffer at the boundary's contents, the generator register
    at some state, nothing owed": entered at `W3`, left at `W4`. Its arrays are split out of the unscoped buffers on
    entry and put back at what the write-backs leave on exit; the generator register goes into the class invariant and
    comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state holds every unscoped buffer of every core at the last boundary's contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Gen

end
-- ==== Proof.Frames.lean ====
/-
  The argument arrays end as launched: none of the host operations writes an argument (they write the transposes, the
  scaled and concatenated weights and bias), no region writes one (region 0 reads the activations through an input
  window; the weights and biases are used only by the host operations), so the fold of boundary contents at an argument's
  buffer walks back to the launch memory. With the run this is the frame claim, at any float instance.
-/
import proofs.«150409_j20710332301555_2_alg».proof.Proof.Run

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ)

/-- The references the host operations write. -/
abbrev hostW : List (Ref sig .tc) := [main_v0, main_v1, main_v2, main_cst, main_v3, main_v4, main_v5, main_v6, main_cst_0, main_v7, main_v8, main_v9]
theorem hostOps0_writes_sub : (hostOps0 : List (HloOp τ sig (Elt F))).Forall fun op => op.writes ⊆ (hostW.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.nary_writes, Finset.singleton_subset_iff, List.mem_toFinset]; exact List.mem_map_of_mem (by decide))
/-- A buffer no host operation writes holds after them what it held at launch. -/
theorem W1_of (c : Dev nD) (r : Ref sig .tc) (h : r ∉ hostW) : W1 m c r = W0 m c r :=
  StableHlo.after_of_writes_sub hostOps0 _ hostOps0_writes_sub h

/-- The activations reach the end as launched: no host operation writes them, region 0 reads them through an input window
    (whose array the pipeline leaves as entered), regions 1 and 2 do not touch them. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩)
    (run_all m ρ)

end Cert.KernelIdeal.Gen

end
-- ==== Proof.KerIdx.lean ====
/-
  Where the three projections sit in the concatenated weights [1024, 3072] and bias [3072]: the scaled query weights
  occupy columns 0..1023, the key weights columns 1024..2047, the value weights columns 2048..3071.
-/
import Mathlib.Data.Fin.Basic

namespace Cert.Attn

/-- Column e of the query part. -/
def colQ (e : Fin 1024) : Fin 3072 := ⟨e.val, by have := e.isLt; omega⟩
/-- Column e of the key part. -/
def colK (e : Fin 1024) : Fin 3072 := ⟨1024 + e.val, by have := e.isLt; omega⟩
/-- Column e of the value part. -/
def colV (e : Fin 1024) : Fin 3072 := ⟨2048 + e.val, by have := e.isLt; omega⟩

@[simp] theorem colQ_val (e : Fin 1024) : (colQ e).val = e.val := rfl
@[simp] theorem colK_val (e : Fin 1024) : (colK e).val = 1024 + e.val := rfl
@[simp] theorem colV_val (e : Fin 1024) : (colV e).val = 2048 + e.val := rfl

end Cert.Attn
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Pay0.lean ====
/-
  The projection body's arithmetic read at coordinates, at the exact values.

  The body holds a block of 512 rows of the activations x[r, d], the three weight matrices laid side by side as one
  1024 x 3072 matrix W[d, n] and the three biases laid end to end as one vector b[n]. It forms
  y[r, n] = (sum over d of x[r, d] * W[d, n]) + b[n]  and stores its three column blocks of width 1024: the columns
  e, 1024 + e and 2048 + e as the query, key and value rows. The conversions between the two float formats are the
  identity at the exact values, the leading unit axes contribute nothing to a position, and the matrix product into the
  zero splat is the plain finite sum.
-/
import proofs.«150409_j20710332301555_2_alg».proof.Proof.Gen.KernelIdeal.Skeleton
import proofs.«150409_j20710332301555_2_alg».proof.Proof.LibContractPlain
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Ker

open Idealize.ShloMosaic Idealize.ShloMosaic.ValueIdx Cert.KernelIdeal Cert.KernelIdeal.Gen

/-- The projection before its three column blocks are cut: row r of x against column n of W, plus b[n]. -/
theorem k0_pay1_apply (v0 : Vec Ideal S1x512x1024 .f32) (v3 : Vec Ideal S1024x3072 .bf16) (v6 : Vec Ideal S3072 .f32)
    (r : Fin 512) (n : Fin 3072) :
    k0_pay1 v0 v3 v6 (ix2 r n)
      = (∑ d : Fin 1024, (v0 (ix3 (0 : Fin 1) r d) : EReal) * (v3 (ix2 d n) : EReal)) + (v6 (ix1 n) : EReal) := by
  unfold k0_pay1
  refine congrArg₂ (fun a b : EReal => a + b) ?_ ?_
  · refine (Cert.Lib.ContractPlain.matmulZero_apply dot_S512x1024_S1024x3072_S512x3072_1_0_0_1_n_n rfl none _ _ r n).trans ?_
    refine Finset.sum_congr rfl fun d _ => ?_
    refine congrArg₂ (fun a b : EReal => a * b) ?_ ?_
    · exact shapeCast_1ab_ab_apply v0 _ r d
    · exact congrFun (shapeCast_self v3 _) (ix2 d n)
  · refine (broadcastTo_1b_ab_apply _ _ r n).trans ?_
    refine (shapeCast_a_1a_apply _ _ (0 : Fin 1) n).trans ?_
    exact congrFun (shapeCast_self v6 _) (ix1 n)

/-- The stored query block at (0, r, e): column e of the projection. -/
theorem k0_pay2_apply (v0 : Vec Ideal S1x512x1024 .f32) (v3 : Vec Ideal S1024x3072 .bf16) (v6 : Vec Ideal S3072 .f32)
    (r : Fin 512) (e : Fin 1024) :
    k0_pay2 v0 v3 v6 (ix3 (0 : Fin 1) r e)
      = (∑ d : Fin 1024, (v0 (ix3 (0 : Fin 1) r d) : EReal) * (v3 (ix2 d (⟨e.val, by omega⟩ : Fin 3072)) : EReal))
          + (v6 (ix1 (⟨e.val, by omega⟩ : Fin 3072)) : EReal) := by
  unfold k0_pay2
  refine (shapeCast_ab_1ab_apply _ _ (0 : Fin 1) r e).trans ?_
  refine (truncf_apply _ bitsLt_bf16_f32 (ix2 r e)).trans ?_
  refine (slice2_axis1_apply 0 _ _ r e (⟨e.val, by omega⟩ : Fin 3072) (Nat.zero_add _).symm).trans ?_
  exact k0_pay1_apply v0 v3 v6 r _

/-- The stored key block at (0, r, e): column 1024 + e of the projection. -/
theorem k0_pay3_apply (v0 : Vec Ideal S1x512x1024 .f32) (v3 : Vec Ideal S1024x3072 .bf16) (v6 : Vec Ideal S3072 .f32)
    (r : Fin 512) (e : Fin 1024) :
    k0_pay3 v0 v3 v6 (ix3 (0 : Fin 1) r e)
      = (∑ d : Fin 1024, (v0 (ix3 (0 : Fin 1) r d) : EReal) * (v3 (ix2 d (⟨1024 + e.val, by omega⟩ : Fin 3072)) : EReal))
          + (v6 (ix1 (⟨1024 + e.val, by omega⟩ : Fin 3072)) : EReal) := by
  unfold k0_pay3
  refine (shapeCast_ab_1ab_apply _ _ (0 : Fin 1) r e).trans ?_
  refine (truncf_apply _ bitsLt_bf16_f32 (ix2 r e)).trans ?_
  refine (slice2_axis1_apply 1024 _ _ r e (⟨1024 + e.val, by omega⟩ : Fin 3072) rfl).trans ?_
  exact k0_pay1_apply v0 v3 v6 r _

/-- The stored value block at (0, r, e): column 2048 + e of the projection. -/
theorem k0_pay4_apply (v0 : Vec Ideal S1x512x1024 .f32) (v3 : Vec Ideal S1024x3072 .bf16) (v6 : Vec Ideal S3072 .f32)
    (r : Fin 512) (e : Fin 1024) :
    k0_pay4 v0 v3 v6 (ix3 (0 : Fin 1) r e)
      = (∑ d : Fin 1024, (v0 (ix3 (0 : Fin 1) r d) : EReal) * (v3 (ix2 d (⟨2048 + e.val, by omega⟩ : Fin 3072)) : EReal))
          + (v6 (ix1 (⟨2048 + e.val, by omega⟩ : Fin 3072)) : EReal) := by
  unfold k0_pay4
  refine (shapeCast_ab_1ab_apply _ _ (0 : Fin 1) r e).trans ?_
  refine (truncf_apply _ bitsLt_bf16_f32 (ix2 r e)).trans ?_
  refine (slice2_axis1_apply 2048 _ _ r e (⟨2048 + e.val, by omega⟩ : Fin 3072) rfl).trans ?_
  exact k0_pay1_apply v0 v3 v6 r _

end Cert.Attn.Ker

end
-- ==== Proof.Final0Base.lean ====
/-
  The projection region's three output arrays after the region, as whole-array functions of the buffers' contents on
  entry, at the exact values: q[b,s,e], k[b,s,e], v[b,s,e] = (sum over d of x[b,s,d] W[d, col e]) + bias[col e], where
  col e is column e of the query, key or value part of the concatenated weights and bias.

  The grid has 32 points; point t works on batch b = t / 4 and on the rows (t mod 4) * 512 .. (t mod 4) * 512 + 511 of
  the sequence axis. Each point reads that block of x and the whole weights and bias, and writes back the same block of
  each output; the 32 blocks tile the arrays.
-/
import proofs.«150409_j20710332301555_2_alg».proof.Proof.Region0
import proofs.«150409_j20710332301555_2_alg».proof.Proof.KerIdx
import proofs.«150409_j20710332301555_2_alg».proof.Proof.Pay0
import Idealize.ShloMosaic.Lib.Pipeline.Value
import Idealize.ShloMosaic.Lib.ValueIdx

noncomputable section

namespace Cert.KernelIdeal.Final0

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (V : (c : Dev nD) → (b : Ref sig .tc) → Buf (Elt Ideal) ((c : Thread nD τ).loc b))

/-- x[b,s,d] on entry, as an extended real. -/
abbrev xAt (c : Dev nD) (b : Fin 8) (s : Fin 2048) (d : Fin 1024) : EReal := V c main_arg0 (ix3 b s d)
/-- The concatenated weights W[d,n] on entry. -/
abbrev wAt (c : Dev nD) (d : Fin 1024) (n : Fin 3072) : EReal := V c main_v6 (ix2 d n)
/-- The concatenated bias[n] on entry. -/
abbrev biasAt (c : Dev nD) (n : Fin 3072) : EReal := V c main_v9 (ix1 n)

/-- One projection at (b,s,e), through the column map of its part of the concatenated weights and bias. -/
def projAt (c : Dev nD) (col : Fin 1024 → Fin 3072) (b : Fin 8) (s : Fin 2048) (e : Fin 1024) : EReal :=
  (∑ d : Fin 1024, xAt V c b s d * wAt V c d (col e)) + biasAt V c (col e)

/-- The same as a function of the array index. -/
def projArr (c : Dev nD) (col : Fin 1024 → Fin 3072) : S8x2048x1024.Idx → EReal :=
  fun i => projAt V c col (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 32 points: the block of x and of each output sits at (t / 4, t mod 4, 0);
    the weights and the bias are whole. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-- Every (batch, row block) is some point's. -/
theorem idx_onto : ∀ (q0 : Fin 8) (q1 : Fin 4), ∃ t : Fin cfg0.N, t.val / 4 = q0.val ∧ t.val % 4 = q1.val :=
  (by decide +kernel : ∀ (q0 : Fin 8) (q1 : Fin 4), ∃ t : Fin grid0.N, t.val / 4 = q0.val ∧ t.val % 4 = q1.val)

/-- The block of x at point t, at (0, r, d), is x[b, s, d] for b = t / 4 and s = (t mod 4) * 512 + r. -/
theorem iblk0_0_apply (c : Dev nD) (t : Fin cfg0.N) (r : Fin 512) (d : Fin 1024) (b : Fin 8) (s : Fin 2048)
    (hb : b.val = t.val / 4) (hs : s.val = t.val % 4 * 512 + r.val) :
    (iblk0 V c 0 t : Vec Ideal S1x512x1024 .f32) (ix3 (0 : Fin 1) r d) = V c main_arg0 (ix3 b s d) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * d.val = d.val; omega

/-- The weights' block is the whole array. -/
theorem iblk0_1_apply (c : Dev nD) (t : Fin cfg0.N) (d : Fin 1024) (n : Fin 3072) :
    (iblk0 V c 1 t : Vec Ideal S1024x3072 .bf16) (ix2 d n) = V c main_v6 (ix2 d n) := by
  obtain ⟨-, -, -, e3, e4, -⟩ := idx_facts t
  unfold iblk0
  rw [View.read_apply]
  show V c main_v6 _ = V c main_v6 _
  congr 1
  funext a
  apply Fin.ext
  match a with
  | ⟨0, _⟩ => show win0_1.index t (0 : Fin 2) * 1024 + 1 * d.val = d.val; omega
  | ⟨1, _⟩ => show win0_1.index t (1 : Fin 2) * 3072 + 1 * n.val = n.val; omega

/-- The bias's block is the whole array. -/
theorem iblk0_2_apply (c : Dev nD) (t : Fin cfg0.N) (n : Fin 3072) :
    (iblk0 V c 2 t : Vec Ideal S3072 .f32) (ix1 n) = V c main_v9 (ix1 n) := by
  obtain ⟨-, -, -, -, -, e5, -⟩ := idx_facts t
  unfold iblk0
  rw [View.read_apply]
  show V c main_v9 _ = V c main_v9 _
  congr 1
  funext a
  apply Fin.ext
  match a with
  | ⟨0, _⟩ => show win0_2.index t (0 : Fin 1) * 3072 + 1 * n.val = n.val; omega

end Cert.KernelIdeal.Final0

end
-- ==== Proof.Final0Q.lean ====
/-
  The query array after the projection region: each of the 32 points writes back its block of the projection through
  the query columns of the concatenated weights and bias, and the blocks tile the array.
-/
import proofs.«150409_j20710332301555_2_alg».proof.Proof.Final0Base

noncomputable section

namespace Cert.KernelIdeal.Final0

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (V : (c : Dev nD) → (b : Ref sig .tc) → Buf (Elt Ideal) ((c : Thread nD τ).loc b))

/-- The stored query block at point t, at (0, r, e), for b = t / 4 and s = (t mod 4) * 512 + r. -/
theorem pay_q_at (c : Dev nD) (t : Fin cfg0.N) (r : Fin 512) (e : Fin 1024) (b : Fin 8) (s : Fin 2048) (e' : Fin 1024)
    (hb : b.val = t.val / 4) (hs : s.val = t.val % 4 * 512 + r.val) (he : e'.val = e.val) :
    k0_pay2 (F := Ideal) (iblk0 V c 0 t) (iblk0 V c 1 t) (iblk0 V c 2 t) (ix3 (0 : Fin 1) r e) = projAt V c colQ b s e' := by
  obtain rfl : e = e' := (Fin.ext he).symm
  refine (Cert.Attn.Ker.k0_pay2_apply (iblk0 V c 0 t) (iblk0 V c 1 t) (iblk0 V c 2 t) r e).trans ?_
  unfold projAt
  refine congrArg₂ (fun a b : EReal => a + b)
    (Finset.sum_congr rfl fun d _ => congrArg₂ (fun a b : EReal => a * b) ?_ ?_) ?_
  · exact iblk0_0_apply V c t r d b s hb hs
  · exact iblk0_1_apply V c t d _
  · exact iblk0_2_apply V c t _

/-- What point t writes back to the query array is block t of the projection. -/
theorem flushed3_eq (c : Dev nD) (t : Fin cfg0.N) :
    (dat0 V c).flushed 3 t = ((cfg0.win 3).blk t).view.read (Elt Ideal) (projArr V c colQ) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x3072) hz2,
    View.ld_unit_zero (S := S3072) hz1]
  have hf := idx_facts t
  funext j
  revert j
  show ∀ j : S1x512x1024.Idx, k0_pay2 (F := Ideal) (iblk0 V c 0 t) (iblk0 V c 1 t) (iblk0 V c 2 t) j
      = projArr V c colQ (((cfg0.win 3).blk t).view.emb j)
  intro j
  obtain ⟨z, r, e, rfl⟩ : ∃ (z : Fin 1) (r : Fin 512) (e : Fin 1024), j = ix3 z r e := ⟨j 0, j 1, j 2, eq_ix3 j⟩
  obtain rfl : z = 0 := Subsingleton.elim _ _
  unfold projArr
  refine pay_q_at V c t r e _ _ _ ?_ ?_ ?_
  · show win0_3.index t (0 : Fin 3) * 1 + 1 * 0 = t.val / 4; omega
  · show win0_3.index t (1 : Fin 3) * 512 + 1 * r.val = t.val % 4 * 512 + r.val; omega
  · show win0_3.index t (2 : Fin 3) * 1024 + 1 * e.val = e.val; omega

/-- An index of the query array is in point t's block iff each coordinate is in the block's range on its axis. -/
theorem mem_blk3 (t : Fin cfg0.N) (i : S8x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v10_0).slice (win0_3.rect t)).set ↔ _
  rw [View.set_slice_whole, Rect.mem_set_unit]
  exact Iff.rfl

/-- The 32 blocks tile the query array: index (b, s, e) is in the block of the point with t / 4 = b and
    t mod 4 = s / 512. -/
theorem cover3 (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  have ht0' : t.val / 4 = (i 0).val := ht0
  have ht1' : t.val % 4 = (i 1).val / 512 := ht1
  have hf := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The query array after the region, at (b, s, e). -/
theorem final0_3 (c : Dev nD) (b : Fin 8) (s : Fin 2048) (e : Fin 1024) :
    (dat0 (F := Ideal) V c).arrAt 3 cfg0.N (ix3 b s e)
      = (∑ d : Fin 1024, xAt V c b s d * wAt V c d (colQ e)) + biasAt V c (colQ e) :=
  congrFun ((dat0 V c).arrAt_eq_of_cover 3 (projArr V c colQ) (fun t _ => flushed3_eq V c t) cover3) (ix3 b s e)

/-- The same, with the three entry arrays named: the form to rewrite with once the entry contents are known. -/
theorem final0_3_of (c : Dev nD) (X : S8x2048x1024.Idx → EReal) (W : S1024x3072.Idx → EReal) (B : S3072.Idx → EReal)
    (hX : V c main_arg0 = X) (hW : V c main_v6 = W) (hB : V c main_v9 = B) (b : Fin 8) (s : Fin 2048) (e : Fin 1024) :
    (dat0 (F := Ideal) V c).arrAt 3 cfg0.N (ix3 b s e)
      = (∑ d : Fin 1024, X (ix3 b s d) * W (ix2 d (colQ e))) + B (ix1 (colQ e)) := by
  subst hX hW hB
  exact final0_3 V c b s e

end Cert.KernelIdeal.Final0

end
-- ==== Proof.Final0K.lean ====
/-
  The key array after the projection region: each of the 32 points writes back its block of the projection through
  the key columns of the concatenated weights and bias, and the blocks tile the array.
-/
import proofs.«150409_j20710332301555_2_alg».proof.Proof.Final0Base

noncomputable section

namespace Cert.KernelIdeal.Final0

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (V : (c : Dev nD) → (b : Ref sig .tc) → Buf (Elt Ideal) ((c : Thread nD τ).loc b))

/-- The stored key block at point t, at (0, r, e), for b = t / 4 and s = (t mod 4) * 512 + r. -/
theorem pay_k_at (c : Dev nD) (t : Fin cfg0.N) (r : Fin 512) (e : Fin 1024) (b : Fin 8) (s : Fin 2048) (e' : Fin 1024)
    (hb : b.val = t.val / 4) (hs : s.val = t.val % 4 * 512 + r.val) (he : e'.val = e.val) :
    k0_pay3 (F := Ideal) (iblk0 V c 0 t) (iblk0 V c 1 t) (iblk0 V c 2 t) (ix3 (0 : Fin 1) r e) = projAt V c colK b s e' := by
  obtain rfl : e = e' := (Fin.ext he).symm
  refine (Cert.Attn.Ker.k0_pay3_apply (iblk0 V c 0 t) (iblk0 V c 1 t) (iblk0 V c 2 t) r e).trans ?_
  unfold projAt
  refine congrArg₂ (fun a b : EReal => a + b)
    (Finset.sum_congr rfl fun d _ => congrArg₂ (fun a b : EReal => a * b) ?_ ?_) ?_
  · exact iblk0_0_apply V c t r d b s hb hs
  · exact iblk0_1_apply V c t d _
  · exact iblk0_2_apply V c t _

/-- What point t writes back to the key array is block t of the projection. -/
theorem flushed4_eq (c : Dev nD) (t : Fin cfg0.N) :
    (dat0 V c).flushed 4 t = ((cfg0.win 4).blk t).view.read (Elt Ideal) (projArr V c colK) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x3072) hz2,
    View.ld_unit_zero (S := S3072) hz1]
  have hf := idx_facts t
  funext j
  revert j
  show ∀ j : S1x512x1024.Idx, k0_pay3 (F := Ideal) (iblk0 V c 0 t) (iblk0 V c 1 t) (iblk0 V c 2 t) j
      = projArr V c colK (((cfg0.win 4).blk t).view.emb j)
  intro j
  obtain ⟨z, r, e, rfl⟩ : ∃ (z : Fin 1) (r : Fin 512) (e : Fin 1024), j = ix3 z r e := ⟨j 0, j 1, j 2, eq_ix3 j⟩
  obtain rfl : z = 0 := Subsingleton.elim _ _
  unfold projArr
  refine pay_k_at V c t r e _ _ _ ?_ ?_ ?_
  · show win0_4.index t (0 : Fin 3) * 1 + 1 * 0 = t.val / 4; omega
  · show win0_4.index t (1 : Fin 3) * 512 + 1 * r.val = t.val % 4 * 512 + r.val; omega
  · show win0_4.index t (2 : Fin 3) * 1024 + 1 * e.val = e.val; omega

/-- An index of the key array is in point t's block iff each coordinate is in the block's range on its axis. -/
theorem mem_blk4 (t : Fin cfg0.N) (i : S8x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v10_1).slice (win0_4.rect t)).set ↔ _
  rw [View.set_slice_whole, Rect.mem_set_unit]
  exact Iff.rfl

/-- The 32 blocks tile the key array: index (b, s, e) is in the block of the point with t / 4 = b and
    t mod 4 = s / 512. -/
theorem cover4 (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  have ht0' : t.val / 4 = (i 0).val := ht0
  have ht1' : t.val % 4 = (i 1).val / 512 := ht1
  have hf := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The key array after the region, at (b, s, e). -/
theorem final0_4 (c : Dev nD) (b : Fin 8) (s : Fin 2048) (e : Fin 1024) :
    (dat0 (F := Ideal) V c).arrAt 4 cfg0.N (ix3 b s e)
      = (∑ d : Fin 1024, xAt V c b s d * wAt V c d (colK e)) + biasAt V c (colK e) :=
  congrFun ((dat0 V c).arrAt_eq_of_cover 4 (projArr V c colK) (fun t _ => flushed4_eq V c t) cover4) (ix3 b s e)

/-- The same, with the three entry arrays named: the form to rewrite with once the entry contents are known. -/
theorem final0_4_of (c : Dev nD) (X : S8x2048x1024.Idx → EReal) (W : S1024x3072.Idx → EReal) (B : S3072.Idx → EReal)
    (hX : V c main_arg0 = X) (hW : V c main_v6 = W) (hB : V c main_v9 = B) (b : Fin 8) (s : Fin 2048) (e : Fin 1024) :
    (dat0 (F := Ideal) V c).arrAt 4 cfg0.N (ix3 b s e)
      = (∑ d : Fin 1024, X (ix3 b s d) * W (ix2 d (colK e))) + B (ix1 (colK e)) := by
  subst hX hW hB
  exact final0_4 V c b s e

end Cert.KernelIdeal.Final0

end
-- ==== Proof.Final0V.lean ====
/-
  The value array after the projection region: each of the 32 points writes back its block of the projection through
  the value columns of the concatenated weights and bias, and the blocks tile the array.
-/
import proofs.«150409_j20710332301555_2_alg».proof.Proof.Final0Base

noncomputable section

namespace Cert.KernelIdeal.Final0

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (V : (c : Dev nD) → (b : Ref sig .tc) → Buf (Elt Ideal) ((c : Thread nD τ).loc b))

/-- The stored value block at point t, at (0, r, e), for b = t / 4 and s = (t mod 4) * 512 + r. -/
theorem pay_v_at (c : Dev nD) (t : Fin cfg0.N) (r : Fin 512) (e : Fin 1024) (b : Fin 8) (s : Fin 2048) (e' : Fin 1024)
    (hb : b.val = t.val / 4) (hs : s.val = t.val % 4 * 512 + r.val) (he : e'.val = e.val) :
    k0_pay4 (F := Ideal) (iblk0 V c 0 t) (iblk0 V c 1 t) (iblk0 V c 2 t) (ix3 (0 : Fin 1) r e) = projAt V c colV b s e' := by
  obtain rfl : e = e' := (Fin.ext he).symm
  refine (Cert.Attn.Ker.k0_pay4_apply (iblk0 V c 0 t) (iblk0 V c 1 t) (iblk0 V c 2 t) r e).trans ?_
  unfold projAt
  refine congrArg₂ (fun a b : EReal => a + b)
    (Finset.sum_congr rfl fun d _ => congrArg₂ (fun a b : EReal => a * b) ?_ ?_) ?_
  · exact iblk0_0_apply V c t r d b s hb hs
  · exact iblk0_1_apply V c t d _
  · exact iblk0_2_apply V c t _

/-- What point t writes back to the value array is block t of the projection. -/
theorem flushed5_eq (c : Dev nD) (t : Fin cfg0.N) :
    (dat0 V c).flushed 5 t = ((cfg0.win 5).blk t).view.read (Elt Ideal) (projArr V c colV) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x3072) hz2,
    View.ld_unit_zero (S := S3072) hz1]
  have hf := idx_facts t
  funext j
  revert j
  show ∀ j : S1x512x1024.Idx, k0_pay4 (F := Ideal) (iblk0 V c 0 t) (iblk0 V c 1 t) (iblk0 V c 2 t) j
      = projArr V c colV (((cfg0.win 5).blk t).view.emb j)
  intro j
  obtain ⟨z, r, e, rfl⟩ : ∃ (z : Fin 1) (r : Fin 512) (e : Fin 1024), j = ix3 z r e := ⟨j 0, j 1, j 2, eq_ix3 j⟩
  obtain rfl : z = 0 := Subsingleton.elim _ _
  unfold projArr
  refine pay_v_at V c t r e _ _ _ ?_ ?_ ?_
  · show win0_5.index t (0 : Fin 3) * 1 + 1 * 0 = t.val / 4; omega
  · show win0_5.index t (1 : Fin 3) * 512 + 1 * r.val = t.val % 4 * 512 + r.val; omega
  · show win0_5.index t (2 : Fin 3) * 1024 + 1 * e.val = e.val; omega

/-- An index of the value array is in point t's block iff each coordinate is in the block's range on its axis. -/
theorem mem_blk5 (t : Fin cfg0.N) (i : S8x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v10_2).slice (win0_5.rect t)).set ↔ _
  rw [View.set_slice_whole, Rect.mem_set_unit]
  exact Iff.rfl

/-- The 32 blocks tile the value array: index (b, s, e) is in the block of the point with t / 4 = b and
    t mod 4 = s / 512. -/
theorem cover5 (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  have ht0' : t.val / 4 = (i 0).val := ht0
  have ht1' : t.val % 4 = (i 1).val / 512 := ht1
  have hf := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The value array after the region, at (b, s, e). -/
theorem final0_5 (c : Dev nD) (b : Fin 8) (s : Fin 2048) (e : Fin 1024) :
    (dat0 (F := Ideal) V c).arrAt 5 cfg0.N (ix3 b s e)
      = (∑ d : Fin 1024, xAt V c b s d * wAt V c d (colV e)) + biasAt V c (colV e) :=
  congrFun ((dat0 V c).arrAt_eq_of_cover 5 (projArr V c colV) (fun t _ => flushed5_eq V c t) cover5) (ix3 b s e)

/-- The same, with the three entry arrays named: the form to rewrite with once the entry contents are known. -/
theorem final0_5_of (c : Dev nD) (X : S8x2048x1024.Idx → EReal) (W : S1024x3072.Idx → EReal) (B : S3072.Idx → EReal)
    (hX : V c main_arg0 = X) (hW : V c main_v6 = W) (hB : V c main_v9 = B) (b : Fin 8) (s : Fin 2048) (e : Fin 1024) :
    (dat0 (F := Ideal) V c).arrAt 5 cfg0.N (ix3 b s e)
      = (∑ d : Fin 1024, X (ix3 b s d) * W (ix2 d (colV e))) + B (ix1 (colV e)) := by
  subst hX hW hB
  exact final0_5 V c b s e

end Cert.KernelIdeal.Final0

end
-- ==== Proof.Final0.lean ====
/-
  The projection region's three output arrays after the region (query, key, value), each as a whole-array function of
  the buffers' contents on entry: the three sibling modules gathered.
-/
import proofs.«150409_j20710332301555_2_alg».proof.Proof.Final0Q
import proofs.«150409_j20710332301555_2_alg».proof.Proof.Final0K
import proofs.«150409_j20710332301555_2_alg».proof.Proof.Final0V
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibLeadingReduce.lean ====
/-
  Reductions of a matrix over its LEADING axis read at an index given by coordinates, at the exact values.

  Reducing [a, b] over axis 0 leaves [b]; the source index over the result index q with the coordinate k of the dropped
  axis put back is (k, q). So, at the exact values, a float sum over the leading axis reads at q the finite sum over k
  of the source at (k, q), and a float maximum reads the fold of max over k, from the accumulator's value, of the
  source at (k, q): the column sum and the column maximum of a matrix.
-/
import Idealize.ShloMosaic.Lib.ValueLayout
import Idealize.ShloMosaic.PureOps.Reduce
import Idealize.ShloMosaic.PureOps.Ideal.Laws

namespace Cert.Lib.LeadingReduce

open Idealize.ShloMosaic Idealize.ShloMosaic.ValueIdx

/-- Reducing `[a, b]` over its leading axis: the source index over `q` with `k` inserted is `(k, q)`. -/
theorem lift_leading2 {a b : ℕ} (h : (⟨2, ![a, b]⟩ : Shape).Reduces [(0 : Fin 2)] ⟨1, ![b]⟩)
    (q : Fin b) (k : Fin a) : h.lift (ix1 q) k = ix2 k q := by
  funext ax
  apply Fin.ext
  match ax with
  | ⟨0, _⟩ => rfl
  | ⟨1, _⟩ => rfl

/-- At the exact values, a float sum of `[a, b]` over its leading axis reads, at `q`, the sum over `k` of the source at
    `(k, q)`. -/
theorem multiReduction_add_leading2 {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (lift_leading2 h q k)

/-- At the exact values, the maximum of `[a, b]` over its leading axis reads, at `q`, the fold of `max` from the
    accumulator's value over `k` of the source at `(k, q)`. -/
theorem multiReduction_max_leading2 {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun k => src (ix2 k q)) := by
  refine (Ideal.multiReduction_maximumf_single src acc h hφ hacc (ix1 q)).trans ?_
  exact congrArg (Finset.fold max _ · Finset.univ) (funext fun k => congrArg src (lift_leading2 h q k))

end Cert.Lib.LeadingReduce
-- ==== Proof.Pay1.lean ====
/-
  The statistics body's arithmetic read at coordinates, at the exact values.

  The body holds all 2048 query rows q[i, e] and a block of 512 key rows k[j, e]. It forms the scores
  s[i, j] = sum over e of q[i, e] * k[j, e], for every key column j the maximum over the queries
  m[j] = fold of max over i of s[i, j] from the word of minus infinity, the numerators p[i, j] = exp (s[i, j] - m[j]),
  their column sums z[j] = sum over i of p[i, j], and stores 1 / z[j] and the numerators. The conversion between the
  two float formats is the identity at the exact values, the leading unit axes contribute nothing to a position, the
  matrix product into the zero splat is the plain finite sum, and the two reductions run over the leading axis.
-/
import proofs.«150409_j20710332301555_2_alg».proof.Proof.Gen.KernelIdeal.Skeleton
import proofs.«150409_j20710332301555_2_alg».proof.Proof.LibContractRows
import proofs.«150409_j20710332301555_2_alg».proof.Proof.LibLeadingReduce
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Ker

open Idealize.ShloMosaic Idealize.ShloMosaic.ValueIdx Cert.KernelIdeal Cert.KernelIdeal.Gen

/-- The scores of query row i against key row j of the block. -/
def score (v0 : Vec Ideal S1x2048x1024 .bf16) (v2 : Vec Ideal S1x512x1024 .bf16) (i : Fin 2048) (j : Fin 512) : EReal :=
  ∑ e : Fin 1024, (v0 (ix3 (0 : Fin 1) i e) : EReal) * (v2 (ix3 (0 : Fin 1) j e) : EReal)

/-- The column maximum as the body spells it, over any 2048 x 512 matrix: the fold of max down column q from the word of
    minus infinity. -/
theorem colMax_apply (src : FVec Ideal S2048x512 .f32) (q : Fin 512) :
    multiReduction (F := Ideal) .maximumf [0] S512 src 0xFF800000#32 reduces_S2048x512_S512 (.inl rfl) rfl (ix1 q)
      = (Finset.univ : Finset (Fin 2048)).fold max (Ideal.ofBits .f32 0xFF800000#32) (fun k => src (ix2 k q)) :=
  Cert.Lib.LeadingReduce.multiReduction_max_leading2 src 0xFF800000#32 reduces_S2048x512_S512 (.inl rfl) rfl q

/-- The column sum as the body spells it, over any 2048 x 512 matrix: the finite sum down column q. -/
theorem colSum_apply (src : FVec Ideal S2048x512 .f32) (q : Fin 512) :
    multiReduction (F := Ideal) .add [0] S512 src 0x00000000#32 reduces_S2048x512_S512 (.inl rfl) rfl (ix1 q)
      = ∑ k : Fin 2048, src (ix2 k q) :=
  Cert.Lib.LeadingReduce.multiReduction_add_leading2 src 0x00000000#32 reduces_S2048x512_S512 (.inl rfl) rfl q

/-- The numerators before the leading unit axis is put back: exp (score - column maximum). -/
theorem k1_pay1_apply (v0 : Vec Ideal S1x2048x1024 .bf16) (v2 : Vec Ideal S1x512x1024 .bf16) (i : Fin 2048) (j : Fin 512) :
    k1_pay1 v0 v2 (ix2 i j)
      = Ideal.exp (score v0 v2 i j
          - (Finset.univ : Finset (Fin 2048)).fold max (Ideal.ofBits .f32 0xFF800000#32) (fun i' => score v0 v2 i' j)) := by
  have hs : ∀ (p : Fin 2048) (q : Fin 512),
      matmul dot_S2048x1024_S512x1024_S2048x512_1_1_0_0_n_n none
          (shapeCast S2048x1024 v0 shapeCasts_S1x2048x1024_S2048x1024 : FVec Ideal S2048x1024 .bf16)
          (shapeCast S512x1024 v2 shapeCasts_S1x512x1024_S512x1024 : FVec Ideal S512x1024 .bf16)
          (constant (F := Ideal) S2048x512 .f32 0x00000000#32) (ix2 p q) = score v0 v2 p q := fun p q => by
    refine (ContractRows.matmul_zero_apply (M := 2048) (K := 1024) (N := 512) none _ _ p q).trans ?_
    unfold score
    refine Finset.sum_congr rfl fun e _ => ?_
    refine congrArg₂ (fun a b : EReal => a * b) ?_ ?_
    · exact shapeCast_1ab_ab_apply v0 _ p e
    · exact shapeCast_1ab_ab_apply v2 _ q e
  unfold k1_pay1
  refine congrArg Ideal.exp ?_
  refine congrArg₂ (fun a b : EReal => a - b) (hs i j) ?_
  refine (broadcastTo_1b_ab_apply _ _ i j).trans ?_
  refine (shapeCast_a_1a_apply _ _ (0 : Fin 1) j).trans ?_
  refine (colMax_apply _ j).trans ?_
  exact congrArg (Finset.fold max _ · Finset.univ) (funext fun i' => hs i' j)

/-- The stored numerator block at (0, i, j): exp (score - column maximum). -/
theorem k1_pay3_apply (v0 : Vec Ideal S1x2048x1024 .bf16) (v2 : Vec Ideal S1x512x1024 .bf16) (i : Fin 2048) (j : Fin 512) :
    k1_pay3 v0 v2 (ix3 (0 : Fin 1) i j)
      = Ideal.exp ((∑ e : Fin 1024, (v0 (ix3 (0 : Fin 1) i e) : EReal) * (v2 (ix3 (0 : Fin 1) j e) : EReal))
          - (Finset.univ : Finset (Fin 2048)).fold max (Ideal.ofBits .f32 0xFF800000#32)
              (fun i' => ∑ e : Fin 1024, (v0 (ix3 (0 : Fin 1) i' e) : EReal) * (v2 (ix3 (0 : Fin 1) j e) : EReal))) := by
  unfold k1_pay3
  refine (shapeCast_ab_1ab_apply _ _ (0 : Fin 1) i j).trans ?_
  refine (truncf_apply _ bitsLt_bf16_f32 (ix2 i j)).trans ?_
  exact k1_pay1_apply v0 v2 i j

/-- The stored inverse column sum at (0, 0, j): 1 / (sum over the queries of the stored numerators of column j). -/
theorem k1_pay2_apply (v0 : Vec Ideal S1x2048x1024 .bf16) (v2 : Vec Ideal S1x512x1024 .bf16) (j : Fin 512) :
    k1_pay2 v0 v2 (ix3 (0 : Fin 1) (0 : Fin 1) j)
      = Ideal.div (Ideal.ofBits .f32 0x3F800000#32) (∑ i : Fin 2048, (k1_pay3 v0 v2 (ix3 (0 : Fin 1) i j) : EReal)) := by
  have h3 : ∀ i : Fin 2048, (k1_pay3 v0 v2 (ix3 (0 : Fin 1) i j) : EReal) = k1_pay1 v0 v2 (ix2 i j) := fun i => by
    unfold k1_pay3
    refine (shapeCast_ab_1ab_apply _ _ (0 : Fin 1) i j).trans ?_
    exact truncf_apply _ bitsLt_bf16_f32 (ix2 i j)
  rw [Finset.sum_congr rfl fun i _ => h3 i]
  unfold k1_pay2
  refine (shapeCast_ab_1ab_apply _ _ (0 : Fin 1) (0 : Fin 1) j).trans ?_
  refine congrArg (Ideal.div (Ideal.ofBits .f32 0x3F800000#32)) ?_
  refine (shapeCast_a_1a_apply _ _ (0 : Fin 1) j).trans ?_
  exact colSum_apply _ j

end Cert.Attn.Ker

end
-- ==== Proof.Spec.lean ====
/-
  The mathematics of the certificate, free of both programs: single-head attention with the softmax taken over the
  QUERY axis, written twice over the extended reals as functions of coordinates.

  Inputs: activations X[b, s, d] (8 x 2048 x 1024), three weight matrices W[e, d] (1024 x 1024, torch's Linear layout) and
  three biases b[e].

  The reference's arrangement: q = X Wqᵀ + bq (and k, v alike); scores[b,i,j] = (sum over e of q[b,i,e] k[b,j,e]) / sqrt 1024;
  for every key column j the maximum over the queries i, the numerator exp(score - max), its sum over i, the
  weight numerator / sum; the output sum over j of weight[b,i,j] v[b,j,d].

  The kernel's arrangement: the factor 1/32 multiplied into Wq and bq before the projection, the scores a bare
  contraction, the column maximum a bare fold, the column sum inverted once (1 / z) and multiplied in.

  The float literals are kept as their words (the same word on both sides is never evaluated).
-/
import Mathlib.Data.EReal.Basic
import Mathlib.Algebra.BigOperators.Group.Finset.Basic
import Idealize.ShloMosaic.PureOps.Ideal

noncomputable section

namespace Cert.Attn

open Idealize.ShloMosaic

/-- 0.03125 = 1/32, the kernel's score scale. -/
abbrev cScale : EReal := Ideal.ofBits .f32 0x3D000000#32
/-- 1024.0, whose square root the reference divides the scores by. -/
abbrev cDim : EReal := Ideal.ofBits .f32 0x44800000#32
/-- The word of -inf, from which both maxima start. -/
abbrev cNegInf : EReal := Ideal.ofBits .f32 0xFF800000#32
/-- The word of 0.0, from which the reference's sum starts. -/
abbrev cZero : EReal := Ideal.ofBits .f32 0x00000000#32
/-- The word of 1.0, the kernel's numerator of 1 / z. -/
abbrev cOne : EReal := Ideal.ofBits .f32 0x3F800000#32

abbrev Act := Fin 8 → Fin 2048 → Fin 1024 → EReal
abbrev Mat := Fin 1024 → Fin 1024 → EReal
abbrev Bias := Fin 1024 → EReal
abbrev Sq := Fin 8 → Fin 2048 → Fin 2048 → EReal
abbrev Col := Fin 8 → Fin 2048 → EReal

/-! ## Shared pieces -/

/-- A torch Linear layer: y[b,s,e] = (sum over d of X[b,s,d] W[e,d]) + bias[e]. -/
def lin (X : Act) (W : Mat) (b : Bias) : Act := fun bb s e => (∑ d : Fin 1024, X bb s d * W e d) + b e

/-- The bare contraction of queries with keys over the feature axis. -/
def dots (q k : Act) : Sq := fun bb i j => ∑ e : Fin 1024, q bb i e * k bb j e

/-- The fold of max over the queries i of column j, from the word of -inf. -/
def colFold (sc : Sq) : Col := fun bb j => (Finset.univ : Finset (Fin 2048)).fold max cNegInf (fun i => sc bb i j)

/-- exp (score - column maximum). -/
def numer (sc : Sq) (mx : Col) : Sq := fun bb i j => Ideal.exp (sc bb i j - mx bb j)

/-- The sum of a column over the queries. -/
def colSum (p : Sq) : Col := fun bb j => ∑ i : Fin 2048, p bb i j

/-- The weighted sum of the values: out[b,i,d] = sum over j of w[b,i,j] v[b,j,d]. -/
def mix (w : Sq) (v : Act) : Act := fun bb i d => ∑ j : Fin 2048, w bb i j * v bb j d

/-! ## The reference's arrangement -/

def refScores (X : Act) (Wq : Mat) (bq : Bias) (Wk : Mat) (bk : Bias) : Sq :=
  fun bb i j => Ideal.div (dots (lin X Wq bq) (lin X Wk bk) bb i j) (Ideal.sqrt cDim)

def refMax (sc : Sq) : Col := fun bb j => max cNegInf (colFold sc bb j)

def refNumer (X : Act) (Wq : Mat) (bq : Bias) (Wk : Mat) (bk : Bias) : Sq :=
  numer (refScores X Wq bq Wk bk) (refMax (refScores X Wq bq Wk bk))

/-- The reference's attention weights (its second result). -/
def refWeights (X : Act) (Wq : Mat) (bq : Bias) (Wk : Mat) (bk : Bias) : Sq :=
  fun bb i j => Ideal.div (refNumer X Wq bq Wk bk bb i j) (cZero + colSum (refNumer X Wq bq Wk bk) bb j)

/-- The reference's attention output (its first result). -/
def refOut (X : Act) (Wq : Mat) (bq : Bias) (Wk : Mat) (bk : Bias) (Wv : Mat) (bv : Bias) : Act :=
  mix (refWeights X Wq bq Wk bk) (lin X Wv bv)

/-! ## The kernel's arrangement -/

/-- The query projection with the scale folded into the weights and the bias. -/
def kerQ (X : Act) (Wq : Mat) (bq : Bias) : Act :=
  fun bb s e => (∑ d : Fin 1024, X bb s d * (Wq e d * cScale)) + bq e * cScale

def kerScores (X : Act) (Wq : Mat) (bq : Bias) (Wk : Mat) (bk : Bias) : Sq :=
  dots (kerQ X Wq bq) (lin X Wk bk)

def kerNumer (X : Act) (Wq : Mat) (bq : Bias) (Wk : Mat) (bk : Bias) : Sq :=
  numer (kerScores X Wq bq Wk bk) (colFold (kerScores X Wq bq Wk bk))

/-- 1 / (column sum), computed once per key column. -/
def kerInvZ (X : Act) (Wq : Mat) (bq : Bias) (Wk : Mat) (bk : Bias) : Col :=
  fun bb j => Ideal.div cOne (colSum (kerNumer X Wq bq Wk bk) bb j)

/-- The kernel's attention weights (its second result). -/
def kerWeights (X : Act) (Wq : Mat) (bq : Bias) (Wk : Mat) (bk : Bias) : Sq :=
  fun bb i j => kerNumer X Wq bq Wk bk bb i j * kerInvZ X Wq bq Wk bk bb j

/-- The kernel's attention output (its first result). -/
def kerOut (X : Act) (Wq : Mat) (bq : Bias) (Wk : Mat) (bk : Bias) (Wv : Mat) (bv : Bias) : Act :=
  mix (kerWeights X Wq bq Wk bk) (lin X Wv bv)

/-- Every entry a real number. -/
def FiniteAct (X : Act) : Prop := ∀ bb s d, X bb s d ≠ ⊤ ∧ X bb s d ≠ ⊥
def FiniteMat (W : Mat) : Prop := ∀ e d, W e d ≠ ⊤ ∧ W e d ≠ ⊥
def FiniteBias (b : Bias) : Prop := ∀ e, b e ≠ ⊤ ∧ b e ≠ ⊥

end Cert.Attn

end
-- ==== Proof.Final1.lean ====
/-
  Region 1 (the statistics kernel) read as whole arrays. On entry the region finds the scaled queries Q and the keys K,
  both [8, 2048, 1024]. Grid point t = (b, kv) stages all 2048 query rows of batch b and the 512 key rows
  kv·512 … kv·512 + 511, and writes back two blocks: the numerators exp(score − column maximum) for those 512 key columns
  (all queries), and the reciprocals 1 / (column sum) for them. Because a point holds EVERY query row, a column's maximum
  and sum inside the block are the column's maximum and sum in the whole [2048, 2048] score matrix; the 32 points'
  blocks tile both output arrays. Hence after the region the numerator array is numer (dots Q K) (colFold (dots Q K))
  and the reciprocal array is 1 / colSum of it, entry by entry.
-/
import proofs.«150409_j20710332301555_2_alg».proof.Proof.Region1
import proofs.«150409_j20710332301555_2_alg».proof.Proof.Pay1
import proofs.«150409_j20710332301555_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.Attn

variable (V : (c : Dev nD) → (b : Ref sig .tc) → Buf (Elt Ideal) ((c : Thread nD τ).loc b))

theorem hz3 : (![0, 0, 0] : Fin 3 → Nat) = fun _ => 0 := funext fun a => by fin_cases a <;> rfl

/-- The queries and the keys as the region finds them, in coordinates. -/
abbrev Qf (c : Dev nD) : Act := fun b s e => (V c main_v10_0 : S8x2048x1024.Idx → EReal) (ix3 b s e)
abbrev Kf (c : Dev nD) : Act := fun b s e => (V c main_v10_1 : S8x2048x1024.Idx → EReal) (ix3 b s e)

/-- The numerators of the whole score matrix. -/
abbrev numAll (c : Dev nD) : Sq := numer (dots (Qf V c) (Kf V c)) (colFold (dots (Qf V c) (Kf V c)))

theorem lt32_1 (t : Fin cfg1.N) : t.val < 32 := by
  exact Nat.lt_of_lt_of_eq t.isLt N_1

/-- The batch and the key block of a grid point. -/
def gb1 (t : Fin cfg1.N) : Fin 8 := ⟨t.val / 4, by have := lt32_1 t; omega⟩
def gk1 (t : Fin cfg1.N) : Fin 4 := ⟨t.val % 4, Nat.mod_lt _ (by decide)⟩
/-- Key row jj of key block kv. -/
def keyOf (kv : Fin 4) (jj : Fin 512) : Fin 2048 := ⟨kv.val * 512 + jj.val, by have := kv.isLt; have := jj.isLt; omega⟩

/-- The printed index maps over the 32 grid points. -/
theorem idx1 : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = t.val % 4
    ∧ win1_3.index t (0 : Fin 3) = t.val / 4 ∧ win1_3.index t (1 : Fin 3) = 0 ∧ win1_3.index t (2 : Fin 3) = t.val % 4 :=
  (by decide +kernel : ∀ t : Fin grid1.N, _)

/-- The query window's block at point t is batch t/4 of Q. -/
theorem iblk1_0_apply (c : Dev nD) (t : Fin cfg1.N) (i : Fin 2048) (e : Fin 1024) :
    (iblk1 V c 0 t : Vec Ideal S1x2048x1024 .bf16) (ix3 (0 : Fin 1) i e) = Qf V c (gb1 t) i e := by
  obtain ⟨e0, e1, e2, -⟩ := idx1 t
  unfold iblk1
  rw [View.read_apply]
  show (V c main_v10_0 : S8x2048x1024.Idx → EReal) _ = (V c main_v10_0 : S8x2048x1024.Idx → EReal) _
  congr 1
  funext a
  apply Fin.ext
  match a with
  | ⟨0, _⟩ => show win1_0.index t (0 : Fin 3) * 1 + 1 * 0 = t.val / 4; rw [e0]; omega
  | ⟨1, _⟩ => show win1_0.index t (1 : Fin 3) * 2048 + 1 * i.val = i.val; rw [e1]; omega
  | ⟨2, _⟩ => show win1_0.index t (2 : Fin 3) * 1024 + 1 * e.val = e.val; rw [e2]; omega

/-- The key window's block at point t is rows (t%4)·512 … of batch t/4 of K. -/
theorem iblk1_1_apply (c : Dev nD) (t : Fin cfg1.N) (jj : Fin 512) (e : Fin 1024) :
    (iblk1 V c 1 t : Vec Ideal S1x512x1024 .bf16) (ix3 (0 : Fin 1) jj e) = Kf V c (gb1 t) (keyOf (gk1 t) jj) e := by
  obtain ⟨-, -, -, e0, e1, e2, -⟩ := idx1 t
  unfold iblk1
  rw [View.read_apply]
  show (V c main_v10_1 : S8x2048x1024.Idx → EReal) _ = (V c main_v10_1 : S8x2048x1024.Idx → EReal) _
  congr 1
  funext a
  apply Fin.ext
  match a with
  | ⟨0, _⟩ => show win1_1.index t (0 : Fin 3) * 1 + 1 * 0 = t.val / 4; rw [e0]; omega
  | ⟨1, _⟩ => show win1_1.index t (1 : Fin 3) * 512 + 1 * jj.val = t.val % 4 * 512 + jj.val; rw [e1]; omega
  | ⟨2, _⟩ => show win1_1.index t (2 : Fin 3) * 1024 + 1 * e.val = e.val; rw [e2]; omega

/-- The stored numerator block, over any two loaded blocks that are batch b of Q and key block kv of K. -/
theorem numer_block (x0 : Vec Ideal S1x2048x1024 .bf16) (x1 : Vec Ideal S1x512x1024 .bf16) (Q K : Act) (b : Fin 8) (kv : Fin 4)
    (h0 : ∀ i e, x0 (ix3 (0 : Fin 1) i e) = Q b i e) (h1 : ∀ jj e, x1 (ix3 (0 : Fin 1) jj e) = K b (keyOf kv jj) e)
    (i : Fin 2048) (jj : Fin 512) :
    k1_pay3 x0 x1 (ix3 (0 : Fin 1) i jj) = numer (dots Q K) (colFold (dots Q K)) b i (keyOf kv jj) := by
  rw [Cert.Attn.Ker.k1_pay3_apply]
  simp only [h0, h1]
  rfl

/-- The stored reciprocal block likewise. -/
theorem invz_block (x0 : Vec Ideal S1x2048x1024 .bf16) (x1 : Vec Ideal S1x512x1024 .bf16) (Q K : Act) (b : Fin 8) (kv : Fin 4)
    (h0 : ∀ i e, x0 (ix3 (0 : Fin 1) i e) = Q b i e) (h1 : ∀ jj e, x1 (ix3 (0 : Fin 1) jj e) = K b (keyOf kv jj) e)
    (jj : Fin 512) :
    k1_pay2 x0 x1 (ix3 (0 : Fin 1) (0 : Fin 1) jj)
      = Ideal.div cOne (colSum (numer (dots Q K) (colFold (dots Q K))) b (keyOf kv jj)) := by
  rw [Cert.Attn.Ker.k1_pay2_apply]
  simp only [numer_block x0 x1 Q K b kv h0 h1, colSum, cOne]

/-- The same two facts at a general index of the stored block. -/
theorem numer_block_at (x0 : Vec Ideal S1x2048x1024 .bf16) (x1 : Vec Ideal S1x512x1024 .bf16) (Q K : Act) (b : Fin 8) (kv : Fin 4)
    (h0 : ∀ i e, x0 (ix3 (0 : Fin 1) i e) = Q b i e) (h1 : ∀ jj e, x1 (ix3 (0 : Fin 1) jj e) = K b (keyOf kv jj) e)
    (y : S1x2048x512.Idx) :
    k1_pay3 x0 x1 y = numer (dots Q K) (colFold (dots Q K)) b ⟨(y 1).val, (y 1).isLt⟩ (keyOf kv ⟨(y 2).val, (y 2).isLt⟩) := by
  have hy : y = ix3 (0 : Fin 1) (⟨(y 1).val, (y 1).isLt⟩ : Fin 2048) (⟨(y 2).val, (y 2).isLt⟩ : Fin 512) := by
    funext a
    match a with
    | ⟨0, _⟩ => exact Subsingleton.elim (α := Fin 1) _ _
    | ⟨1, _⟩ => rfl
    | ⟨2, _⟩ => rfl
  conv_lhs => rw [hy]
  exact numer_block x0 x1 Q K b kv h0 h1 _ _

theorem invz_block_at (x0 : Vec Ideal S1x2048x1024 .bf16) (x1 : Vec Ideal S1x512x1024 .bf16) (Q K : Act) (b : Fin 8) (kv : Fin 4)
    (h0 : ∀ i e, x0 (ix3 (0 : Fin 1) i e) = Q b i e) (h1 : ∀ jj e, x1 (ix3 (0 : Fin 1) jj e) = K b (keyOf kv jj) e)
    (y : S1x1x512.Idx) :
    k1_pay2 x0 x1 y = Ideal.div cOne (colSum (numer (dots Q K) (colFold (dots Q K))) b (keyOf kv ⟨(y 2).val, (y 2).isLt⟩)) := by
  have hy : y = ix3 (0 : Fin 1) (0 : Fin 1) (⟨(y 2).val, (y 2).isLt⟩ : Fin 512) := by
    funext a
    match a with
    | ⟨0, _⟩ => exact Subsingleton.elim (α := Fin 1) _ _
    | ⟨1, _⟩ => exact Subsingleton.elim (α := Fin 1) _ _
    | ⟨2, _⟩ => rfl
  conv_lhs => rw [hy]
  exact invz_block x0 x1 Q K b kv h0 h1 _

/-! ## The numerators (output window 3, array [8, 2048, 2048]) -/

/-- What the array ends holding. -/
def G1_3 (c : Dev nD) : S8x2048x2048.Idx → EReal := fun i =>
  numAll V c ⟨(i 0).val, (i 0).isLt⟩ ⟨(i 1).val, (i 1).isLt⟩ ⟨(i 2).val, (i 2).isLt⟩

theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3]
  unfold out1_3
  rw [View.canon_unit_zero hz3]
  simp only [View.ld_unit_zero (S := S1x2048x1024) hz3, View.ld_unit_zero (S := S1x512x1024) hz3]
  obtain ⟨-, -, -, -, -, -, -, -, -, e0, e1, e2⟩ := idx1 t
  funext j
  show k1_pay3 (iblk1 V c 0 t) (iblk1 V c 1 t) j = G1_3 V c (((cfg1.win 3).blk t).view.emb j)
  refine (numer_block_at (iblk1 V c 0 t) (iblk1 V c 1 t) (Qf V c) (Kf V c) (gb1 t) (gk1 t) (iblk1_0_apply V c t) (iblk1_1_apply V c t) j).trans ?_
  unfold G1_3
  have hj0 : (j 0).val < 1 := (j 0).isLt
  refine congr (congr (congrArg (numAll V c) ?_) ?_) ?_ <;> apply Fin.ext
  · show t.val / 4 = win1_3.index t (0 : Fin 3) * 1 + 1 * (j 0).val; rw [e0]; omega
  · show (j 1).val = win1_3.index t (1 : Fin 3) * 2048 + 1 * (j 1).val; rw [e1]; omega
  · show t.val % 4 * 512 + (j 2).val = win1_3.index t (2 : Fin 3) * 512 + 1 * (j 2).val; rw [e2]; omega

/-- Every entry of the numerator array is in the block of the point (batch, key block of its column). -/
theorem tiles1_3 (i : S8x2048x2048.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 2048 := (i 2).isLt
  obtain ⟨t, ht⟩ : ∃ t : Fin cfg1.N, t.val = (i 0).val * 4 + (i 2).val / 512 :=
    ⟨⟨(i 0).val * 4 + (i 2).val / 512, Nat.lt_of_lt_of_eq (by omega) N_1.symm⟩, rfl⟩
  refine ⟨t, flush1_3 t, ?_⟩
  obtain ⟨-, -, -, -, -, -, -, -, -, e0, e1, e2⟩ := idx1 t
  show i ∈ ((View.whole main_v11_1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 2048 ≤ (i 1).val ∧ (i 1).val < win1_3.index t (1 : Fin 3) * 2048 + 2048; rw [e1]; omega
  | ⟨2, _⟩ => show win1_3.index t (2 : Fin 3) * 512 ≤ (i 2).val ∧ (i 2).val < win1_3.index t (2 : Fin 3) * 512 + 512; rw [e2, ht]; omega

/-- THE NUMERATOR ARRAY after region 1, entry by entry. -/
theorem final1_3 (c : Dev nD) (b : Fin 8) (i j : Fin 2048) :
    (dat1 V c).arrAt 3 cfg1.N (ix3 b i j) = numAll V c b i j := by
  rw [(dat1 V c).arrAt_eq_of_cover 3 (G1_3 V c) (fun t _ => flushed1_3_eq V c t) tiles1_3]
  rfl

/-! ## The reciprocal column sums (output window 2, array [8, 1, 2048]) -/

def G1_2 (c : Dev nD) : S8x1x2048.Idx → EReal := fun i =>
  Ideal.div cOne (colSum (numAll V c) ⟨(i 0).val, (i 0).isLt⟩ ⟨(i 2).val, (i 2).isLt⟩)

theorem flushed1_2_eq (c : Dev nD) (t : Fin cfg1.N) :
    (dat1 V c).flushed 2 t = ((cfg1.win 2).blk t).view.read (Elt Ideal) (G1_2 V c) := by
  show (cfg1.win 2).cut (grid1.coords t) ((dat1 V c).after 2 t) = _
  rw [after1_2]
  unfold out1_2
  rw [View.canon_unit_zero hz3]
  simp only [View.ld_unit_zero (S := S1x2048x1024) hz3, View.ld_unit_zero (S := S1x512x1024) hz3]
  obtain ⟨-, -, -, -, -, -, e0, e1, e2, -⟩ := idx1 t
  funext j
  show k1_pay2 (iblk1 V c 0 t) (iblk1 V c 1 t) j = G1_2 V c (((cfg1.win 2).blk t).view.emb j)
  refine (invz_block_at (iblk1 V c 0 t) (iblk1 V c 1 t) (Qf V c) (Kf V c) (gb1 t) (gk1 t) (iblk1_0_apply V c t) (iblk1_1_apply V c t) j).trans ?_
  unfold G1_2
  have hj0 : (j 0).val < 1 := (j 0).isLt
  refine congrArg (Ideal.div cOne) (congr (congrArg (colSum (numAll V c)) ?_) ?_) <;> apply Fin.ext
  · show t.val / 4 = win1_2.index t (0 : Fin 3) * 1 + 1 * (j 0).val; rw [e0]; omega
  · show t.val % 4 * 512 + (j 2).val = win1_2.index t (2 : Fin 3) * 512 + 1 * (j 2).val; rw [e2]; omega

theorem tiles1_2 (i : S8x1x2048.Idx) :
    ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 2048 := (i 2).isLt
  obtain ⟨t, ht⟩ : ∃ t : Fin cfg1.N, t.val = (i 0).val * 4 + (i 2).val / 512 :=
    ⟨⟨(i 0).val * 4 + (i 2).val / 512, Nat.lt_of_lt_of_eq (by omega) N_1.symm⟩, rfl⟩
  refine ⟨t, flush1_2 t, ?_⟩
  obtain ⟨-, -, -, -, -, -, e0, e1, e2, -⟩ := idx1 t
  show i ∈ ((View.whole main_v11_0).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; rw [e0, ht]; omega
  | ⟨1, _⟩ => show win1_2.index t (1 : Fin 3) * 1 ≤ (i 1).val ∧ (i 1).val < win1_2.index t (1 : Fin 3) * 1 + 1; rw [e1]; omega
  | ⟨2, _⟩ => show win1_2.index t (2 : Fin 3) * 512 ≤ (i 2).val ∧ (i 2).val < win1_2.index t (2 : Fin 3) * 512 + 512; rw [e2, ht]; omega

/-- THE RECIPROCAL ARRAY after region 1, entry by entry. -/
theorem final1_2 (c : Dev nD) (b : Fin 8) (j : Fin 2048) :
    (dat1 V c).arrAt 2 cfg1.N (ix3 b (0 : Fin 1) j) = Ideal.div cOne (colSum (numAll V c) b j) := by
  rw [(dat1 V c).arrAt_eq_of_cover 2 (G1_2 V c) (fun t _ => flushed1_2_eq V c t) tiles1_2]
  rfl

end Cert.KernelIdeal.Gen

end
-- ==== Proof.Pay2.lean ====
/-
  The final body's arithmetic read at coordinates, at the exact values.

  The body holds a block of 512 query rows of the numerators p[i, j] (all 2048 key columns), the inverse column sums
  invz[j] and the values v[j, d]. It stores the weights  w[i, j] = p[i, j] * invz[j]  and the output rows
  out[i, d] = sum over j of w[i, j] * v[j, d].  The conversions between the two float formats are the identity at the
  exact values, the leading unit axes contribute nothing to a position, and the matrix product into the zero splat is
  the plain finite sum.
-/
import proofs.«150409_j20710332301555_2_alg».proof.Proof.Gen.KernelIdeal.Skeleton
import proofs.«150409_j20710332301555_2_alg».proof.Proof.LibContractPlain
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Ker

open Idealize.ShloMosaic Idealize.ShloMosaic.ValueIdx Cert.KernelIdeal Cert.KernelIdeal.Gen

/-- The weights before the leading unit axis is put back: p[i, j] * invz[j]. -/
theorem k2_pay1_apply (v0 : Vec Ideal S1x512x2048 .bf16) (v5 : Vec Ideal S1x1x2048 .f32) (i : Fin 512) (j : Fin 2048) :
    k2_pay1 v0 v5 (ix2 i j) = (v0 (ix3 (0 : Fin 1) i j) : EReal) * (v5 (ix3 (0 : Fin 1) (0 : Fin 1) j) : EReal) := by
  unfold k2_pay1
  refine congrArg₂ (fun a b : EReal => a * b) ?_ ?_
  · exact shapeCast_1ab_ab_apply v0 _ i j
  · refine (broadcastTo_1b_ab_apply _ _ i j).trans ?_
    exact shapeCast_1ab_ab_apply v5 _ (0 : Fin 1) j

/-- The stored weights block at (0, i, j): p[i, j] * invz[j]. -/
theorem k2_pay2_apply (v0 : Vec Ideal S1x512x2048 .bf16) (v5 : Vec Ideal S1x1x2048 .f32) (i : Fin 512) (j : Fin 2048) :
    k2_pay2 v0 v5 (ix3 (0 : Fin 1) i j) = (v0 (ix3 (0 : Fin 1) i j) : EReal) * (v5 (ix3 (0 : Fin 1) (0 : Fin 1) j) : EReal) := by
  unfold k2_pay2
  refine (shapeCast_ab_1ab_apply _ _ (0 : Fin 1) i j).trans ?_
  exact k2_pay1_apply v0 v5 i j

/-- The stored output block at (0, i, d): the sum over the key columns j of (p[i, j] * invz[j]) * v[j, d]. -/
theorem k2_pay3_apply (v0 : Vec Ideal S1x512x2048 .bf16) (v3 : Vec Ideal S1x2048x1024 .bf16) (v5 : Vec Ideal S1x1x2048 .f32)
    (i : Fin 512) (d : Fin 1024) :
    k2_pay3 v0 v3 v5 (ix3 (0 : Fin 1) i d)
      = ∑ j : Fin 2048, ((v0 (ix3 (0 : Fin 1) i j) : EReal) * (v5 (ix3 (0 : Fin 1) (0 : Fin 1) j) : EReal))
          * (v3 (ix3 (0 : Fin 1) j d) : EReal) := by
  unfold k2_pay3
  refine (shapeCast_ab_1ab_apply _ _ (0 : Fin 1) i d).trans ?_
  refine (Cert.Lib.ContractPlain.matmulZero_apply dot_S512x2048_S2048x1024_S512x1024_1_0_0_1_n_n rfl none _ _ i d).trans ?_
  refine Finset.sum_congr rfl fun j _ => ?_
  refine congrArg₂ (fun a b : EReal => a * b) ?_ ?_
  · exact k2_pay1_apply v0 v5 i j
  · exact shapeCast_1ab_ab_apply v3 _ j d

end Cert.Attn.Ker

end
-- ==== Proof.Final2.lean ====
/-
  The final kernel's two output arrays after its region, as functions of the region-entry contents, in coordinates.

  The grid point t has coordinates (b, qb): the batch and one of the four blocks of 512 query rows. At that point the
  body reads rows 512 qb .. 512 qb + 511 of batch b of the numerators (all 2048 key columns), all of batch b of the
  values and of the reciprocal column sums, and writes the same rows of batch b of the weights and of the output.
  The 32 blocks written tile both output arrays, so after the region
    weights[b, i, j] = numer[b, i, j] * inv[b, 0, j]   and
    out[b, i, d]     = sum over j of (numer[b, i, j] * inv[b, 0, j]) * values[b, j, d].
-/
import proofs.«150409_j20710332301555_2_alg».proof.Proof.Region2
import proofs.«150409_j20710332301555_2_alg».proof.Proof.Pay2
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The numerators as the region finds them, at their literal shape. -/
abbrev numerIn (c : Dev nD) : Vec Ideal S8x2048x2048 .bf16 := V c main_v11_1
/-- The values as the region finds them, at their literal shape. -/
abbrev valuesIn (c : Dev nD) : Vec Ideal S8x2048x1024 .bf16 := V c main_v10_2
/-- The reciprocal column sums as the region finds them, at their literal shape. -/
abbrev invIn (c : Dev nD) : Vec Ideal S8x1x2048 .f32 := V c main_v11_0

theorem zeros3 : (![0, 0, 0] : Fin 3 → Nat) = fun _ => 0 := funext fun a => by fin_cases a <;> rfl

/-! ## The block indices over the grid -/

/-- The printed index maps, decided over the 32 grid points: the numerators, the weights and the output move
    together (batch, row block, 0); the values and the reciprocal sums follow the batch alone. -/
theorem blockIndex_facts2 : ∀ t : Fin cfg2.N,
    win2_0.index t (0 : Fin 3) = win2_4.index t (0 : Fin 3)
    ∧ win2_0.index t (1 : Fin 3) = win2_4.index t (1 : Fin 3)
    ∧ win2_0.index t (2 : Fin 3) = 0
    ∧ win2_1.index t (0 : Fin 3) = win2_4.index t (0 : Fin 3)
    ∧ win2_1.index t (1 : Fin 3) = 0
    ∧ win2_1.index t (2 : Fin 3) = 0
    ∧ win2_2.index t (0 : Fin 3) = win2_4.index t (0 : Fin 3)
    ∧ win2_2.index t (1 : Fin 3) = 0
    ∧ win2_2.index t (2 : Fin 3) = 0
    ∧ win2_3.index t (0 : Fin 3) = win2_4.index t (0 : Fin 3)
    ∧ win2_3.index t (1 : Fin 3) = win2_4.index t (1 : Fin 3)
    ∧ win2_3.index t (2 : Fin 3) = 0
    ∧ win2_4.index t (2 : Fin 3) = 0
    ∧ win2_4.index t (0 : Fin 3) ≤ 7
    ∧ win2_4.index t (1 : Fin 3) ≤ 3 :=
  (by decide +kernel : ∀ t : Fin grid2.N, _)

/-- Every (batch, row block) is some grid point's, for the weights' window. -/
theorem blockIndex_onto2_4 : ∀ (q0 : Fin 8) (q1 : Fin 4), ∃ t : Fin cfg2.N, win2_4.index t = ![q0.val, q1.val, 0] :=
  (by decide +kernel : ∀ (q0 : Fin 8) (q1 : Fin 4), ∃ t : Fin grid2.N, win2_4.index t = ![q0.val, q1.val, 0])

/-- Every (batch, row block) is some grid point's, for the output's window. -/
theorem blockIndex_onto2_3 : ∀ (q0 : Fin 8) (q1 : Fin 4), ∃ t : Fin cfg2.N, win2_3.index t = ![q0.val, q1.val, 0] :=
  (by decide +kernel : ∀ (q0 : Fin 8) (q1 : Fin 4), ∃ t : Fin grid2.N, win2_3.index t = ![q0.val, q1.val, 0])

/-! ## The input blocks read in the arrays' coordinates -/

/-- The numerators' block at a point, at (0, i, j), is the array at (block index, 512 * row block + i, j). -/
theorem numerBlock_apply (c : Dev nD) (t : Fin cfg2.N) (i : Fin 512) (j : Fin 2048) (b : Fin 8) (r : Fin 2048) (j' : Fin 2048)
    (h0 : b.val = win2_0.index t (0 : Fin 3)) (h1 : r.val = win2_0.index t (1 : Fin 3) * 512 + i.val)
    (h2 : j'.val = win2_0.index t (2 : Fin 3) * 2048 + j.val) :
    (iblk2 V c 0 t : Vec Ideal S1x512x2048 .bf16) (ix3 (0 : Fin 1) i j)
      = numerIn V c (ix3 b r j') := by
  unfold iblk2
  rw [View.read_apply]
  show numerIn V c (((cfg2.win 0).blk t).view.emb (ix3 (0 : Fin 1) i j)) = _
  refine congrArg _ ?_
  funext a; apply Fin.ext
  match a with
  | ⟨0, _⟩ => show win2_0.index t (0 : Fin 3) * 1 + 1 * (0 : Nat) = b.val; omega
  | ⟨1, _⟩ => show win2_0.index t (1 : Fin 3) * 512 + 1 * i.val = r.val; omega
  | ⟨2, _⟩ => show win2_0.index t (2 : Fin 3) * 2048 + 1 * j.val = j'.val; omega

/-- The values' block at a point, at (0, j, d), is the array at (block index, j, d). -/
theorem valueBlock_apply (c : Dev nD) (t : Fin cfg2.N) (j : Fin 2048) (d : Fin 1024) (b : Fin 8) (j' : Fin 2048) (d' : Fin 1024)
    (h0 : b.val = win2_1.index t (0 : Fin 3)) (h1 : j'.val = win2_1.index t (1 : Fin 3) * 2048 + j.val)
    (h2 : d'.val = win2_1.index t (2 : Fin 3) * 1024 + d.val) :
    (iblk2 V c 1 t : Vec Ideal S1x2048x1024 .bf16) (ix3 (0 : Fin 1) j d)
      = valuesIn V c (ix3 b j' d') := by
  unfold iblk2
  rw [View.read_apply]
  show valuesIn V c (((cfg2.win 1).blk t).view.emb (ix3 (0 : Fin 1) j d)) = _
  refine congrArg _ ?_
  funext a; apply Fin.ext
  match a with
  | ⟨0, _⟩ => show win2_1.index t (0 : Fin 3) * 1 + 1 * (0 : Nat) = b.val; omega
  | ⟨1, _⟩ => show win2_1.index t (1 : Fin 3) * 2048 + 1 * j.val = j'.val; omega
  | ⟨2, _⟩ => show win2_1.index t (2 : Fin 3) * 1024 + 1 * d.val = d'.val; omega

/-- The reciprocal sums' block at a point, at (0, 0, j), is the array at (block index, 0, j). -/
theorem invBlock_apply (c : Dev nD) (t : Fin cfg2.N) (j : Fin 2048) (b : Fin 8) (j' : Fin 2048)
    (h0 : b.val = win2_2.index t (0 : Fin 3)) (h1 : win2_2.index t (1 : Fin 3) = 0)
    (h2 : j'.val = win2_2.index t (2 : Fin 3) * 2048 + j.val) :
    (iblk2 V c 2 t : Vec Ideal S1x1x2048 .f32) (ix3 (0 : Fin 1) (0 : Fin 1) j)
      = invIn V c (ix3 b (0 : Fin 1) j') := by
  unfold iblk2
  rw [View.read_apply]
  show invIn V c (((cfg2.win 2).blk t).view.emb (ix3 (0 : Fin 1) (0 : Fin 1) j)) = _
  refine congrArg _ ?_
  funext a; apply Fin.ext
  match a with
  | ⟨0, _⟩ => show win2_2.index t (0 : Fin 3) * 1 + 1 * (0 : Nat) = b.val; omega
  | ⟨1, _⟩ => show win2_2.index t (1 : Fin 3) * 1 + 1 * (0 : Nat) = (0 : Nat); omega
  | ⟨2, _⟩ => show win2_2.index t (2 : Fin 3) * 2048 + 1 * j.val = j'.val; omega

/-! ## The two results in coordinates -/

/-- weights[b, i, j] = numer[b, i, j] * inv[b, 0, j]. -/
def weightsAt (c : Dev nD) (b : Fin 8) (i j : Fin 2048) : EReal :=
  (numerIn V c (ix3 b i j) : EReal) * (invIn V c (ix3 b (0 : Fin 1) j) : EReal)

/-- out[b, i, d] = sum over j of (numer[b, i, j] * inv[b, 0, j]) * values[b, j, d]. -/
def outputAt (c : Dev nD) (b : Fin 8) (i : Fin 2048) (d : Fin 1024) : EReal :=
  ∑ j : Fin 2048, ((numerIn V c (ix3 b i j) : EReal)
      * (invIn V c (ix3 b (0 : Fin 1) j) : EReal))
    * (valuesIn V c (ix3 b j d) : EReal)

/-- The weights array as one function of its index. -/
def weightsArr (c : Dev nD) : S8x2048x2048.Idx → EReal := fun K => weightsAt V c (K 0) (K 1) (K 2)

/-- The output array as one function of its index. -/
def outputArr (c : Dev nD) : S8x2048x1024.Idx → EReal := fun K => outputAt V c (K 0) (K 1) (K 2)

/-- What a point stores into the weights' block at (0, i, j), in the array's coordinates. -/
theorem weights_block (c : Dev nD) (t : Fin cfg2.N) (i : Fin 512) (j : Fin 2048) (b : Fin 8) (r : Fin 2048) (j' : Fin 2048)
    (h0 : b.val = win2_4.index t (0 : Fin 3)) (h1 : r.val = win2_4.index t (1 : Fin 3) * 512 + i.val) (h2 : j'.val = j.val) :
    k2_pay2 (iblk2 V c 0 t) (iblk2 V c 2 t) (ix3 (0 : Fin 1) i j) = weightsAt V c b r j' := by
  obtain ⟨e00, e01, e02, e10, e11, e12, e20, e21, e22, e30, e31, e32, e42, l0, l1⟩ := blockIndex_facts2 t
  unfold weightsAt
  refine (Cert.Attn.Ker.k2_pay2_apply _ _ i j).trans ?_
  refine congrArg₂ (fun x y : EReal => x * y) ?_ ?_
  · exact numerBlock_apply V c t i j b r j' (by omega) (by omega) (by omega)
  · exact invBlock_apply V c t j b j' (by omega) e21 (by omega)

/-- What a point stores into the output's block at (0, i, d), in the array's coordinates. -/
theorem output_block (c : Dev nD) (t : Fin cfg2.N) (i : Fin 512) (d : Fin 1024) (b : Fin 8) (r : Fin 2048) (d' : Fin 1024)
    (h0 : b.val = win2_3.index t (0 : Fin 3)) (h1 : r.val = win2_3.index t (1 : Fin 3) * 512 + i.val) (h2 : d'.val = d.val) :
    k2_pay3 (iblk2 V c 0 t) (iblk2 V c 1 t) (iblk2 V c 2 t) (ix3 (0 : Fin 1) i d) = outputAt V c b r d' := by
  obtain ⟨e00, e01, e02, e10, e11, e12, e20, e21, e22, e30, e31, e32, e42, l0, l1⟩ := blockIndex_facts2 t
  unfold outputAt
  refine (Cert.Attn.Ker.k2_pay3_apply _ _ _ i d).trans ?_
  refine Finset.sum_congr rfl fun j _ => ?_
  refine congrArg₂ (fun x y : EReal => x * y) (congrArg₂ (fun x y : EReal => x * y) ?_ ?_) ?_
  · exact numerBlock_apply V c t i j b r j (by omega) (by omega) (by omega)
  · exact invBlock_apply V c t j b j (by omega) e21 (by omega)
  · exact valueBlock_apply V c t j d b j d' (by omega) (by omega) (by omega)

/-! ## What each point writes back, and the arrays after the region -/

/-- Point t writes back block t of the weights function. -/
theorem flushed2_4_eq (c : Dev nD) (t : Fin cfg2.N) :
    (dat2 (F := Ideal) V c).flushed 4 t = ((cfg2.win 4).blk t).view.read (Elt Ideal) (weightsArr V c) := by
  show (cfg2.win 4).cut (grid2.coords t) ((dat2 (F := Ideal) V c).after 4 t) = _
  rw [after2_4]
  unfold out2_4
  rw [View.canon_unit_zero zeros3]
  simp only [View.ld_unit_zero (S := S1x512x2048) zeros3, View.ld_unit_zero (S := S1x1x2048) zeros3]
  obtain ⟨e00, e01, e02, e10, e11, e12, e20, e21, e22, e30, e31, e32, e42, l0, l1⟩ := blockIndex_facts2 t
  funext y
  have hy0 : (y 0).val < 1 := (y 0).isLt
  have hy1 : (y 1).val < 512 := (y 1).isLt
  have hy2 : (y 2).val < 2048 := (y 2).isLt
  have hx : (cfg2.win 4).xinj (grid2.coords t) y
      = (ix3 (0 : Fin 1) (⟨(y 1).val, hy1⟩ : Fin 512) (⟨(y 2).val, hy2⟩ : Fin 2048) : S1x512x2048.Idx) := by
    funext a; apply Fin.ext
    match a with
    | ⟨0, _⟩ => show (y 0).val = 0; omega
    | ⟨1, _⟩ => rfl
    | ⟨2, _⟩ => rfl
  show k2_pay2 (iblk2 V c 0 t) (iblk2 V c 2 t) ((cfg2.win 4).xinj (grid2.coords t) y)
    = weightsArr V c (((cfg2.win 4).blk t).view.emb y)
  refine (congrArg (k2_pay2 (iblk2 V c 0 t) (iblk2 V c 2 t)) hx).trans ?_
  have k0 : (((cfg2.win 4).blk t).view.emb y 0).val = win2_4.index t (0 : Fin 3) * 1 + 1 * (y 0).val := rfl
  have k1 : (((cfg2.win 4).blk t).view.emb y 1).val = win2_4.index t (1 : Fin 3) * 512 + 1 * (y 1).val := rfl
  have k2 : (((cfg2.win 4).blk t).view.emb y 2).val = win2_4.index t (2 : Fin 3) * 2048 + 1 * (y 2).val := rfl
  exact weights_block V c t ⟨(y 1).val, hy1⟩ ⟨(y 2).val, hy2⟩ _ _ _ (by rw [k0]; omega)
    (by rw [k1]; show _ = win2_4.index t (1 : Fin 3) * 512 + (y 1).val; omega) (by rw [k2]; show _ = (y 2).val; omega)

/-- Point t writes back block t of the output function. -/
theorem flushed2_3_eq (c : Dev nD) (t : Fin cfg2.N) :
    (dat2 (F := Ideal) V c).flushed 3 t = ((cfg2.win 3).blk t).view.read (Elt Ideal) (outputArr V c) := by
  show (cfg2.win 3).cut (grid2.coords t) ((dat2 (F := Ideal) V c).after 3 t) = _
  rw [after2_3]
  unfold out2_3
  rw [View.canon_unit_zero zeros3]
  simp only [View.ld_unit_zero (S := S1x512x2048) zeros3, View.ld_unit_zero (S := S1x2048x1024) zeros3,
    View.ld_unit_zero (S := S1x1x2048) zeros3]
  obtain ⟨e00, e01, e02, e10, e11, e12, e20, e21, e22, e30, e31, e32, e42, l0, l1⟩ := blockIndex_facts2 t
  funext y
  have hy0 : (y 0).val < 1 := (y 0).isLt
  have hy1 : (y 1).val < 512 := (y 1).isLt
  have hy2 : (y 2).val < 1024 := (y 2).isLt
  have hx : (cfg2.win 3).xinj (grid2.coords t) y
      = (ix3 (0 : Fin 1) (⟨(y 1).val, hy1⟩ : Fin 512) (⟨(y 2).val, hy2⟩ : Fin 1024) : S1x512x1024.Idx) := by
    funext a; apply Fin.ext
    match a with
    | ⟨0, _⟩ => show (y 0).val = 0; omega
    | ⟨1, _⟩ => rfl
    | ⟨2, _⟩ => rfl
  show k2_pay3 (iblk2 V c 0 t) (iblk2 V c 1 t) (iblk2 V c 2 t) ((cfg2.win 3).xinj (grid2.coords t) y)
    = outputArr V c (((cfg2.win 3).blk t).view.emb y)
  refine (congrArg (k2_pay3 (iblk2 V c 0 t) (iblk2 V c 1 t) (iblk2 V c 2 t)) hx).trans ?_
  have k0 : (((cfg2.win 3).blk t).view.emb y 0).val = win2_3.index t (0 : Fin 3) * 1 + 1 * (y 0).val := rfl
  have k1 : (((cfg2.win 3).blk t).view.emb y 1).val = win2_3.index t (1 : Fin 3) * 512 + 1 * (y 1).val := rfl
  have k2 : (((cfg2.win 3).blk t).view.emb y 2).val = win2_3.index t (2 : Fin 3) * 1024 + 1 * (y 2).val := rfl
  exact output_block V c t ⟨(y 1).val, hy1⟩ ⟨(y 2).val, hy2⟩ _ _ _ (by rw [k0]; omega)
    (by rw [k1]; show _ = win2_3.index t (1 : Fin 3) * 512 + (y 1).val; omega) (by rw [k2]; show _ = (y 2).val; omega)

/-- An index of the weights array is in point t's block iff each coordinate is in the block's range on its axis. -/
theorem mem_blk2_4 (t : Fin cfg2.N) (I : S8x2048x2048.Idx) :
    I ∈ ((cfg2.win 4).blk t).view.set ↔ ∀ a : Fin 3, win2_4.index t a * S1x512x2048.size a ≤ (I a).val
      ∧ (I a).val < win2_4.index t a * S1x512x2048.size a + S1x512x2048.size a := by
  show I ∈ ((View.whole main_v12_1).slice (win2_4.rect t)).set ↔ _
  rw [View.set_slice_whole, Rect.mem_set_unit]
  exact Iff.rfl

/-- An index of the output array is in point t's block iff each coordinate is in the block's range on its axis. -/
theorem mem_blk2_3 (t : Fin cfg2.N) (I : S8x2048x1024.Idx) :
    I ∈ ((cfg2.win 3).blk t).view.set ↔ ∀ a : Fin 3, win2_3.index t a * S1x512x1024.size a ≤ (I a).val
      ∧ (I a).val < win2_3.index t a * S1x512x1024.size a + S1x512x1024.size a := by
  show I ∈ ((View.whole main_v12_0).slice (win2_3.rect t)).set ↔ _
  rw [View.set_slice_whole, Rect.mem_set_unit]
  exact Iff.rfl

/-- The 32 blocks tile the weights array: row i of batch b is in the block of the point (b, i / 512). -/
theorem covered2_4 (I : S8x2048x2048.Idx) :
    ∃ t : Fin cfg2.N, (cfg2.win 4).flush t = true ∧ I ∈ ((cfg2.win 4).blk t).view.set := by
  have hI0 : (I 0).val < 8 := (I 0).isLt
  have hI1 : (I 1).val < 2048 := (I 1).isLt
  have hI2 : (I 2).val < 2048 := (I 2).isLt
  obtain ⟨t, ht⟩ := blockIndex_onto2_4 ⟨(I 0).val, hI0⟩ ⟨(I 1).val / 512, by omega⟩
  have q0 : win2_4.index t (0 : Fin 3) = (I 0).val := congrFun ht 0
  have q1 : win2_4.index t (1 : Fin 3) = (I 1).val / 512 := congrFun ht 1
  have q2 : win2_4.index t (2 : Fin 3) = 0 := congrFun ht 2
  refine ⟨t, flush2_4 t, ?_⟩
  rw [mem_blk2_4]
  intro a
  match a with
  | ⟨0, _⟩ => show win2_4.index t (0 : Fin 3) * 1 ≤ (I 0).val ∧ (I 0).val < win2_4.index t (0 : Fin 3) * 1 + 1; omega
  | ⟨1, _⟩ => show win2_4.index t (1 : Fin 3) * 512 ≤ (I 1).val ∧ (I 1).val < win2_4.index t (1 : Fin 3) * 512 + 512; omega
  | ⟨2, _⟩ => show win2_4.index t (2 : Fin 3) * 2048 ≤ (I 2).val ∧ (I 2).val < win2_4.index t (2 : Fin 3) * 2048 + 2048; omega

/-- The 32 blocks tile the output array likewise. -/
theorem covered2_3 (I : S8x2048x1024.Idx) :
    ∃ t : Fin cfg2.N, (cfg2.win 3).flush t = true ∧ I ∈ ((cfg2.win 3).blk t).view.set := by
  have hI0 : (I 0).val < 8 := (I 0).isLt
  have hI1 : (I 1).val < 2048 := (I 1).isLt
  have hI2 : (I 2).val < 1024 := (I 2).isLt
  obtain ⟨t, ht⟩ := blockIndex_onto2_3 ⟨(I 0).val, hI0⟩ ⟨(I 1).val / 512, by omega⟩
  have q0 : win2_3.index t (0 : Fin 3) = (I 0).val := congrFun ht 0
  have q1 : win2_3.index t (1 : Fin 3) = (I 1).val / 512 := congrFun ht 1
  have q2 : win2_3.index t (2 : Fin 3) = 0 := congrFun ht 2
  refine ⟨t, flush2_3 t, ?_⟩
  rw [mem_blk2_3]
  intro a
  match a with
  | ⟨0, _⟩ => show win2_3.index t (0 : Fin 3) * 1 ≤ (I 0).val ∧ (I 0).val < win2_3.index t (0 : Fin 3) * 1 + 1; omega
  | ⟨1, _⟩ => show win2_3.index t (1 : Fin 3) * 512 ≤ (I 1).val ∧ (I 1).val < win2_3.index t (1 : Fin 3) * 512 + 512; omega
  | ⟨2, _⟩ => show win2_3.index t (2 : Fin 3) * 1024 ≤ (I 2).val ∧ (I 2).val < win2_3.index t (2 : Fin 3) * 1024 + 1024; omega

/-- The weights array after the region is the weights function. -/
theorem final2_4_arr (c : Dev nD) : (dat2 (F := Ideal) V c).arrAt 4 cfg2.N = weightsArr V c :=
  (dat2 (F := Ideal) V c).arrAt_eq_of_cover 4 (weightsArr V c) (fun t _ => flushed2_4_eq V c t) covered2_4

/-- The output array after the region is the output function. -/
theorem final2_3_arr (c : Dev nD) : (dat2 (F := Ideal) V c).arrAt 3 cfg2.N = outputArr V c :=
  (dat2 (F := Ideal) V c).arrAt_eq_of_cover 3 (outputArr V c) (fun t _ => flushed2_3_eq V c t) covered2_3

/-- The weights after the region, in coordinates. -/
theorem final2_4 (c : Dev nD) (b : Fin 8) (i j : Fin 2048) :
    (dat2 (F := Ideal) V c).arrAt 4 cfg2.N (ix3 b i j : S8x2048x2048.Idx)
      = (numerIn V c (ix3 b i j) : EReal)
        * (invIn V c (ix3 b (0 : Fin 1) j) : EReal) :=
  congrFun (final2_4_arr V c) (ix3 b i j : S8x2048x2048.Idx)

/-- The output after the region, in coordinates. -/
theorem final2_3 (c : Dev nD) (b : Fin 8) (i : Fin 2048) (d : Fin 1024) :
    (dat2 (F := Ideal) V c).arrAt 3 cfg2.N (ix3 b i d : S8x2048x1024.Idx)
      = ∑ j : Fin 2048, ((numerIn V c (ix3 b i j) : EReal)
          * (invIn V c (ix3 b (0 : Fin 1) j) : EReal))
        * (valuesIn V c (ix3 b j d) : EReal) :=
  congrFun (final2_3_arr V c) (ix3 b i d : S8x2048x1024.Idx)

end Cert.KernelIdeal.Gen

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.LibConcatCols.lean ====
/-
  Three arrays laid side by side, read at an index given by coordinates.

  Three [n, m] matrices laid side by side along the columns into [n, M] (M = 3m) read, at (r, c), the first at (r, c)
  when c < m, the second at (r, c − m) when m ≤ c < 2m, the third at (r, c − 2m) beyond. Three [n] vectors laid end to
  end into [N] (N = 3n) read, at c, the first at c, the second at c − n, the third at c − 2n in the same way. Each
  lemma takes the coordinate inside the piece and the equation that places it.
-/
import Idealize.ShloMosaic.Lib.Pipeline.Value
import Idealize.ShloMosaic.Lib.ValueIdx

noncomputable section

namespace Cert.Lib.ConcatCols

open Idealize.ShloMosaic Idealize.ShloMosaic.ValueIdx

section Matrices

variable {α : Type} {n m M : ℕ}

/-- Column `c = j` of the three laid side by side is column `j` of the first matrix. -/
theorem row3_first (A B C : (⟨2, ![n, m]⟩ : Shape).Idx → α)
    (h : Shape.Concatenates [(⟨2, ![n, m]⟩ : Shape), ⟨2, ![n, m]⟩, ⟨2, ![n, m]⟩] ⟨2, ![n, M]⟩ 1)
    (r : Fin n) (j : Fin m) (c : Fin M) (hc : c.val = j.val) :
    concatenate ⟨2, ![n, M]⟩ 1 [⟨⟨2, ![n, m]⟩, A⟩, ⟨⟨2, ![n, m]⟩, B⟩, ⟨⟨2, ![n, m]⟩, C⟩] h (ix2 r c) = A (ix2 r j) :=
  concatenate_apply_piece (t := ⟨2, ![n, M]⟩) (1 : Fin 2) [⟨⟨2, ![n, m]⟩, A⟩, ⟨⟨2, ![n, m]⟩, B⟩, ⟨⟨2, ![n, m]⟩, C⟩] h (ix2 r c) 0 (by show 0 < 3; omega)
    ⟨2, ![n, m]⟩ A rfl rfl 0 rfl (ix2 r j)
    (fun b hb => match b, hb with | ⟨0, _⟩, _ => rfl | ⟨1, _⟩, hb => absurd rfl hb)
    (by show 0 + j.val = c.val; omega)

/-- Column `c = m + j` of the three laid side by side is column `j` of the second matrix. -/
theorem row3_second (A B C : (⟨2, ![n, m]⟩ : Shape).Idx → α)
    (h : Shape.Concatenates [(⟨2, ![n, m]⟩ : Shape), ⟨2, ![n, m]⟩, ⟨2, ![n, m]⟩] ⟨2, ![n, M]⟩ 1)
    (r : Fin n) (j : Fin m) (c : Fin M) (hc : c.val = m + j.val) :
    concatenate ⟨2, ![n, M]⟩ 1 [⟨⟨2, ![n, m]⟩, A⟩, ⟨⟨2, ![n, m]⟩, B⟩, ⟨⟨2, ![n, m]⟩, C⟩] h (ix2 r c) = B (ix2 r j) :=
  concatenate_apply_piece (t := ⟨2, ![n, M]⟩) (1 : Fin 2) [⟨⟨2, ![n, m]⟩, A⟩, ⟨⟨2, ![n, m]⟩, B⟩, ⟨⟨2, ![n, m]⟩, C⟩] h (ix2 r c) 1 (by show 1 < 3; omega)
    ⟨2, ![n, m]⟩ B rfl rfl m (by simp) (ix2 r j)
    (fun b hb => match b, hb with | ⟨0, _⟩, _ => rfl | ⟨1, _⟩, hb => absurd rfl hb)
    (by show m + j.val = c.val; omega)

/-- Column `c = 2m + j` of the three laid side by side is column `j` of the third matrix. -/
theorem row3_third (A B C : (⟨2, ![n, m]⟩ : Shape).Idx → α)
    (h : Shape.Concatenates [(⟨2, ![n, m]⟩ : Shape), ⟨2, ![n, m]⟩, ⟨2, ![n, m]⟩] ⟨2, ![n, M]⟩ 1)
    (r : Fin n) (j : Fin m) (c : Fin M) (hc : c.val = m + m + j.val) :
    concatenate ⟨2, ![n, M]⟩ 1 [⟨⟨2, ![n, m]⟩, A⟩, ⟨⟨2, ![n, m]⟩, B⟩, ⟨⟨2, ![n, m]⟩, C⟩] h (ix2 r c) = C (ix2 r j) :=
  concatenate_apply_piece (t := ⟨2, ![n, M]⟩) (1 : Fin 2) [⟨⟨2, ![n, m]⟩, A⟩, ⟨⟨2, ![n, m]⟩, B⟩, ⟨⟨2, ![n, m]⟩, C⟩] h (ix2 r c) 2 (by show 2 < 3; omega)
    ⟨2, ![n, m]⟩ C rfl rfl (m + m) (by simp) (ix2 r j)
    (fun b hb => match b, hb with | ⟨0, _⟩, _ => rfl | ⟨1, _⟩, hb => absurd rfl hb)
    (by show (m + m) + j.val = c.val; omega)

end Matrices

section Vectors

variable {α : Type} {n N : ℕ}

/-- Entry `c = j` of the three laid end to end is entry `j` of the first vector. -/
theorem vec3_first (A B C : (⟨1, ![n]⟩ : Shape).Idx → α)
    (h : Shape.Concatenates [(⟨1, ![n]⟩ : Shape), ⟨1, ![n]⟩, ⟨1, ![n]⟩] ⟨1, ![N]⟩ 0)
    (j : Fin n) (c : Fin N) (hc : c.val = j.val) :
    concatenate ⟨1, ![N]⟩ 0 [⟨⟨1, ![n]⟩, A⟩, ⟨⟨1, ![n]⟩, B⟩, ⟨⟨1, ![n]⟩, C⟩] h (ix1 c) = A (ix1 j) :=
  concatenate_apply_piece (t := ⟨1, ![N]⟩) (0 : Fin 1) [⟨⟨1, ![n]⟩, A⟩, ⟨⟨1, ![n]⟩, B⟩, ⟨⟨1, ![n]⟩, C⟩] h (ix1 c) 0 (by show 0 < 3; omega)
    ⟨1, ![n]⟩ A rfl rfl 0 rfl (ix1 j)
    (fun b hb => match b, hb with | ⟨0, _⟩, hb => absurd rfl hb)
    (by show 0 + j.val = c.val; omega)

/-- Entry `c = n + j` of the three laid end to end is entry `j` of the second vector. -/
theorem vec3_second (A B C : (⟨1, ![n]⟩ : Shape).Idx → α)
    (h : Shape.Concatenates [(⟨1, ![n]⟩ : Shape), ⟨1, ![n]⟩, ⟨1, ![n]⟩] ⟨1, ![N]⟩ 0)
    (j : Fin n) (c : Fin N) (hc : c.val = n + j.val) :
    concatenate ⟨1, ![N]⟩ 0 [⟨⟨1, ![n]⟩, A⟩, ⟨⟨1, ![n]⟩, B⟩, ⟨⟨1, ![n]⟩, C⟩] h (ix1 c) = B (ix1 j) :=
  concatenate_apply_piece (t := ⟨1, ![N]⟩) (0 : Fin 1) [⟨⟨1, ![n]⟩, A⟩, ⟨⟨1, ![n]⟩, B⟩, ⟨⟨1, ![n]⟩, C⟩] h (ix1 c) 1 (by show 1 < 3; omega)
    ⟨1, ![n]⟩ B rfl rfl n (by simp) (ix1 j)
    (fun b hb => match b, hb with | ⟨0, _⟩, hb => absurd rfl hb)
    (by show n + j.val = c.val; omega)

/-- Entry `c = 2n + j` of the three laid end to end is entry `j` of the third vector. -/
theorem vec3_third (A B C : (⟨1, ![n]⟩ : Shape).Idx → α)
    (h : Shape.Concatenates [(⟨1, ![n]⟩ : Shape), ⟨1, ![n]⟩, ⟨1, ![n]⟩] ⟨1, ![N]⟩ 0)
    (j : Fin n) (c : Fin N) (hc : c.val = n + n + j.val) :
    concatenate ⟨1, ![N]⟩ 0 [⟨⟨1, ![n]⟩, A⟩, ⟨⟨1, ![n]⟩, B⟩, ⟨⟨1, ![n]⟩, C⟩] h (ix1 c) = C (ix1 j) :=
  concatenate_apply_piece (t := ⟨1, ![N]⟩) (0 : Fin 1) [⟨⟨1, ![n]⟩, A⟩, ⟨⟨1, ![n]⟩, B⟩, ⟨⟨1, ![n]⟩, C⟩] h (ix1 c) 2 (by show 2 < 3; omega)
    ⟨1, ![n]⟩ C rfl rfl (n + n) (by simp) (ix1 j)
    (fun b hb => match b, hb with | ⟨0, _⟩, hb => absurd rfl hb)
    (by show (n + n) + j.val = c.val; omega)

end Vectors

end Cert.Lib.ConcatCols

end
-- ==== Proof.HostPrep.lean ====
/-
  The host operations before the first kernel, read at coordinates, at the exact values.

  Before the projection the host lays the three weight matrices, each transposed, side by side as one 1024 x 3072
  matrix, the query weights first multiplied entrywise by the splat of the word of 1/32, and narrows the result to the
  short float format (the identity at the exact values); it lays the three biases end to end as one vector of 3072
  entries, the query bias first multiplied by the same splat. So, for d, e below 1024,
      Wcat[d, e]        = Wq[e, d] * (1/32),   Wcat[d, 1024 + e] = Wk[e, d],   Wcat[d, 2048 + e] = Wv[e, d],
      bcat[e]           = bq[e] * (1/32),      bcat[1024 + e]    = bk[e],      bcat[2048 + e]    = bv[e],
  whatever the buffers held before: the statements are over an arbitrary valuation of the buffers at launch.
-/
import proofs.«150409_j20710332301555_2_alg».proof.Proof.Gen.KernelIdeal.Launch
import proofs.«150409_j20710332301555_2_alg».proof.Proof.LibFoldConcat
import proofs.«150409_j20710332301555_2_alg».proof.Proof.LibConcatCols
import Idealize.ShloMosaic.Lib.ValueIdx
import Idealize.ShloMosaic.Lib.ValueLayout
import Idealize.ShloMosaic.Lib.Pipeline.Value

noncomputable section

namespace Cert.Attn.Ker

open Idealize.ShloMosaic Idealize.ShloMosaic.TcCoe Idealize.ShloMosaic.ValueIdx Idealize.ShloMosaic.StableHlo
open Cert.KernelIdeal Cert.KernelIdeal.Gen

/-- Reads a buffer's contents after a straight line of host operations: each operation's result at its own buffer is
    its function of its operands' contents, at any other buffer what was there; a three-operand operation reads each
    operand at its own buffer. -/
macro "host_results3" : tactic =>
  `(tactic| (simp only [after_cons, after_nil]
             repeat (first
               | rw [nullary_result] | rw [unary_result] | rw [binary_result] | rw [Cert.Lib.FoldConcat.nary3_result']
               | (rw [nullary_result_ne]; rotate_left; decide)
               | (rw [unary_result_ne]; rotate_left; decide)
               | (rw [binary_result_ne]; rotate_left; decide)
               | (rw [nary_result_ne]; rotate_left; decide))))

variable (V0 : Valuation τ sig (Elt Ideal))

/-- The splat of the scale's word over a matrix, at any entry, is the word's value. -/
theorem scaleMat_apply (d e : Fin 1024) :
    broadcastInDim S1024x1024 ![] bcast_S_S1024x1024 (constant (F := Ideal) S_ .f32 0x3D000000#32) (ix2 d e)
      = Ideal.ofBits .f32 0x3D000000#32 :=
  broadcastInDim_apply _ _ _ (ix2 d e) ix0 fun a => a.elim0

/-- The splat of the scale's word over a vector, at any entry, is the word's value. -/
theorem scaleVec_apply (e : Fin 1024) :
    broadcastInDim S1024 ![] bcast_S_S1024 (constant (F := Ideal) S_ .f32 0x3D000000#32) (ix1 e)
      = Ideal.ofBits .f32 0x3D000000#32 :=
  broadcastInDim_apply _ _ _ (ix1 e) ix0 fun a => a.elim0

/-- The side-by-side weight matrix after the host operations, as one term over the launch contents. -/
theorem wcat_eq :
    (StableHlo.after (hostOps0 (F := Ideal)) V0 (Proc.devRef .tc main_v6) : S1024x3072.Idx → EReal)
      = truncf (F := Ideal) (φ := .f32) .bf16 (concatenate (α := EReal) S1024x3072 1
          [⟨S1024x1024, mulf (F := Ideal) (φ := .f32) (transpose S1024x1024 [1, 0] (V0 (Proc.devRef .tc main_arg1)) transposes_S1024x1024_S1024x1024_1_0)
              (broadcastInDim S1024x1024 ![] bcast_S_S1024x1024 (constant (F := Ideal) S_ .f32 0x3D000000#32))⟩,
            ⟨S1024x1024, transpose S1024x1024 [1, 0] (V0 (Proc.devRef .tc main_arg3)) transposes_S1024x1024_S1024x1024_1_0⟩,
            ⟨S1024x1024, transpose S1024x1024 [1, 0] (V0 (Proc.devRef .tc main_arg5)) transposes_S1024x1024_S1024x1024_1_0⟩]
          concatenates_S1024x1024_S1024x1024_S1024x1024_S1024x3072_d1) bitsLt_bf16_f32 := by
  host_results3
  rfl

/-- The end-to-end bias vector after the host operations, as one term over the launch contents. -/
theorem bcat_eq :
    (StableHlo.after (hostOps0 (F := Ideal)) V0 (Proc.devRef .tc main_v9) : S3072.Idx → EReal)
      = concatenate (α := EReal) S3072 0
          [⟨S1024, mulf (F := Ideal) (φ := .f32) (V0 (Proc.devRef .tc main_arg2))
              (broadcastInDim S1024 ![] bcast_S_S1024 (constant (F := Ideal) S_ .f32 0x3D000000#32))⟩,
            ⟨S1024, V0 (Proc.devRef .tc main_arg4)⟩,
            ⟨S1024, V0 (Proc.devRef .tc main_arg6)⟩]
          concatenates_S1024_S1024_S1024_S3072_d0 := by
  host_results3
  rfl

/-- Column e of the side-by-side matrix: the query weights transposed, times the scale. -/
theorem wcat_q (Wq : S1024x1024.Idx → EReal) (hq : V0 (Proc.devRef .tc main_arg1) = Wq) (d e : Fin 1024) :
    (StableHlo.after (hostOps0 (F := Ideal)) V0 (Proc.devRef .tc main_v6) : S1024x3072.Idx → EReal)
        (ix2 d (⟨e.val, by omega⟩ : Fin 3072))
      = Wq (ix2 e d) * Ideal.ofBits .f32 0x3D000000#32 := by
  subst hq
  rw [wcat_eq]
  refine (truncf_apply _ bitsLt_bf16_f32 _).trans ?_
  refine (Cert.Lib.ConcatCols.row3_first _ _ _ _ d e (⟨e.val, by omega⟩ : Fin 3072) rfl).trans ?_
  refine congrArg₂ (fun a b : EReal => a * b) ?_ (scaleMat_apply d e)
  exact transpose_ix2_apply _ _ d e

/-- Column 1024 + e of the side-by-side matrix: the key weights transposed. -/
theorem wcat_k (Wk : S1024x1024.Idx → EReal) (hk : V0 (Proc.devRef .tc main_arg3) = Wk) (d e : Fin 1024) :
    (StableHlo.after (hostOps0 (F := Ideal)) V0 (Proc.devRef .tc main_v6) : S1024x3072.Idx → EReal)
        (ix2 d (⟨1024 + e.val, by omega⟩ : Fin 3072))
      = Wk (ix2 e d) := by
  subst hk
  rw [wcat_eq]
  refine (truncf_apply _ bitsLt_bf16_f32 _).trans ?_
  refine (Cert.Lib.ConcatCols.row3_second _ _ _ _ d e _ rfl).trans ?_
  exact transpose_ix2_apply _ _ d e

/-- Column 2048 + e of the side-by-side matrix: the value weights transposed. -/
theorem wcat_v (Wv : S1024x1024.Idx → EReal) (hv : V0 (Proc.devRef .tc main_arg5) = Wv) (d e : Fin 1024) :
    (StableHlo.after (hostOps0 (F := Ideal)) V0 (Proc.devRef .tc main_v6) : S1024x3072.Idx → EReal)
        (ix2 d (⟨2048 + e.val, by omega⟩ : Fin 3072))
      = Wv (ix2 e d) := by
  subst hv
  rw [wcat_eq]
  refine (truncf_apply _ bitsLt_bf16_f32 _).trans ?_
  refine (Cert.Lib.ConcatCols.row3_third _ _ _ _ d e _ (by show 2048 + e.val = 1024 + 1024 + e.val; omega)).trans ?_
  exact transpose_ix2_apply _ _ d e

/-- Entry e of the end-to-end vector: the query bias times the scale. -/
theorem bcat_q (bq : S1024.Idx → EReal) (hq : V0 (Proc.devRef .tc main_arg2) = bq) (e : Fin 1024) :
    (StableHlo.after (hostOps0 (F := Ideal)) V0 (Proc.devRef .tc main_v9) : S3072.Idx → EReal)
        (ix1 (⟨e.val, by omega⟩ : Fin 3072))
      = bq (ix1 e) * Ideal.ofBits .f32 0x3D000000#32 := by
  subst hq
  rw [bcat_eq]
  refine (Cert.Lib.ConcatCols.vec3_first _ _ _ _ e (⟨e.val, by omega⟩ : Fin 3072) rfl).trans ?_
  exact congrArg₂ (fun a b : EReal => a * b) rfl (scaleVec_apply e)

/-- Entry 1024 + e of the end-to-end vector: the key bias. -/
theorem bcat_k (bk : S1024.Idx → EReal) (hk : V0 (Proc.devRef .tc main_arg4) = bk) (e : Fin 1024) :
    (StableHlo.after (hostOps0 (F := Ideal)) V0 (Proc.devRef .tc main_v9) : S3072.Idx → EReal)
        (ix1 (⟨1024 + e.val, by omega⟩ : Fin 3072))
      = bk (ix1 e) := by
  subst hk
  rw [bcat_eq]
  exact Cert.Lib.ConcatCols.vec3_second _ _ _ _ e _ rfl

/-- Entry 2048 + e of the end-to-end vector: the value bias. -/
theorem bcat_v (bv : S1024.Idx → EReal) (hv : V0 (Proc.devRef .tc main_arg6) = bv) (e : Fin 1024) :
    (StableHlo.after (hostOps0 (F := Ideal)) V0 (Proc.devRef .tc main_v9) : S3072.Idx → EReal)
        (ix1 (⟨2048 + e.val, by omega⟩ : Fin 3072))
      = bv (ix1 e) := by
  subst hv
  rw [bcat_eq]
  exact Cert.Lib.ConcatCols.vec3_third _ _ _ _ e _ (by show 2048 + e.val = 1024 + 1024 + e.val; omega)

end Cert.Attn.Ker

end
-- ==== Proof.Chain.lean ====
/-
  The kernel program's two result arrays after the run, entry by entry, as the specification's kernel arrangement of the
  ARGUMENT arrays. The boundary contents are walked forwards: after the host operations the concatenated weights hold
  Wqᵀ·(1/32) | Wkᵀ | Wvᵀ and the concatenated bias bq·(1/32) | bk | bv while the activations are untouched; after region 0
  the three projection arrays hold the scaled queries, the keys and the values; after region 1 the numerator array holds
  exp(score − column maximum) and the reciprocal array 1 / (column sum); region 1 leaves the values alone; after
  region 2 the weights array holds numerator · reciprocal and the output array their product with the values.
-/
import proofs.«150409_j20710332301555_2_alg».proof.Proof.Frames
import proofs.«150409_j20710332301555_2_alg».proof.Proof.Final0
import proofs.«150409_j20710332301555_2_alg».proof.Proof.Final1
import proofs.«150409_j20710332301555_2_alg».proof.Proof.Final2
import proofs.«150409_j20710332301555_2_alg».proof.Proof.HostPrep
import proofs.«150409_j20710332301555_2_alg».proof.Proof.Spec
import proofs.«150409_j20710332301555_2_alg».proof.Proof.KerIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ)

/-! ## The arguments in coordinates -/

abbrev aX (c : Dev nD) : Act := fun b s d => (m ((c : Thread nD τ).loc main_arg0) : S8x2048x1024.Idx → EReal) (ix3 b s d)
abbrev aWq (c : Dev nD) : Mat := fun e d => (m ((c : Thread nD τ).loc main_arg1) : S1024x1024.Idx → EReal) (ix2 e d)
abbrev abq (c : Dev nD) : Bias := fun e => (m ((c : Thread nD τ).loc main_arg2) : S1024.Idx → EReal) (ix1 e)
abbrev aWk (c : Dev nD) : Mat := fun e d => (m ((c : Thread nD τ).loc main_arg3) : S1024x1024.Idx → EReal) (ix2 e d)
abbrev abk (c : Dev nD) : Bias := fun e => (m ((c : Thread nD τ).loc main_arg4) : S1024.Idx → EReal) (ix1 e)
abbrev aWv (c : Dev nD) : Mat := fun e d => (m ((c : Thread nD τ).loc main_arg5) : S1024x1024.Idx → EReal) (ix2 e d)
abbrev abv (c : Dev nD) : Bias := fun e => (m ((c : Thread nD τ).loc main_arg6) : S1024.Idx → EReal) (ix1 e)

/-! ## After the host operations -/

theorem V1_x (c : Dev nD) : V1 m c main_arg0 = m ((c : Thread nD τ).loc main_arg0) := W1_of m c main_arg0 (by decide)

theorem V1_wq (c : Dev nD) (d e : Fin 1024) : (V1 m c main_v6 : S1024x3072.Idx → EReal) (ix2 d (colQ e)) = aWq m c e d * cScale :=
  Cert.Attn.Ker.wcat_q (W0 m c) _ rfl d e
theorem V1_wk (c : Dev nD) (d e : Fin 1024) : (V1 m c main_v6 : S1024x3072.Idx → EReal) (ix2 d (colK e)) = aWk m c e d :=
  Cert.Attn.Ker.wcat_k (W0 m c) _ rfl d e
theorem V1_wv (c : Dev nD) (d e : Fin 1024) : (V1 m c main_v6 : S1024x3072.Idx → EReal) (ix2 d (colV e)) = aWv m c e d :=
  Cert.Attn.Ker.wcat_v (W0 m c) _ rfl d e
theorem V1_bq (c : Dev nD) (e : Fin 1024) : (V1 m c main_v9 : S3072.Idx → EReal) (ix1 (colQ e)) = abq m c e * cScale :=
  Cert.Attn.Ker.bcat_q (W0 m c) _ rfl e
theorem V1_bk (c : Dev nD) (e : Fin 1024) : (V1 m c main_v9 : S3072.Idx → EReal) (ix1 (colK e)) = abk m c e :=
  Cert.Attn.Ker.bcat_k (W0 m c) _ rfl e
theorem V1_bv (c : Dev nD) (e : Fin 1024) : (V1 m c main_v9 : S3072.Idx → EReal) (ix1 (colV e)) = abv m c e :=
  Cert.Attn.Ker.bcat_v (W0 m c) _ rfl e

/-! ## After region 0: the scaled queries, the keys, the values -/

theorem V2_q (c : Dev nD) (b : Fin 8) (s : Fin 2048) (e : Fin 1024) :
    (V2 m c main_v10_0 : S8x2048x1024.Idx → EReal) (ix3 b s e) = kerQ (aX m c) (aWq m c) (abq m c) b s e := by
  refine (congrFun (W2_arr m c 3) (ix3 b s e)).trans
    ((Cert.KernelIdeal.Final0.final0_3_of (V1 m) c _ _ _ (V1_x m c) rfl rfl b s e).trans ?_)
  unfold kerQ
  rw [V1_bq m c e]
  simp only [V1_wq m c]

theorem V2_k (c : Dev nD) (b : Fin 8) (s : Fin 2048) (e : Fin 1024) :
    (V2 m c main_v10_1 : S8x2048x1024.Idx → EReal) (ix3 b s e) = lin (aX m c) (aWk m c) (abk m c) b s e := by
  refine (congrFun (W2_arr m c 4) (ix3 b s e)).trans
    ((Cert.KernelIdeal.Final0.final0_4_of (V1 m) c _ _ _ (V1_x m c) rfl rfl b s e).trans ?_)
  unfold lin
  rw [V1_bk m c e]
  simp only [V1_wk m c]

theorem V2_v (c : Dev nD) (b : Fin 8) (s : Fin 2048) (e : Fin 1024) :
    (V2 m c main_v10_2 : S8x2048x1024.Idx → EReal) (ix3 b s e) = lin (aX m c) (aWv m c) (abv m c) b s e := by
  refine (congrFun (W2_arr m c 5) (ix3 b s e)).trans
    ((Cert.KernelIdeal.Final0.final0_5_of (V1 m) c _ _ _ (V1_x m c) rfl rfl b s e).trans ?_)
  unfold lin
  rw [V1_bv m c e]
  simp only [V1_wv m c]

/-! ## After region 1: the numerators and the reciprocal column sums -/

theorem Qf_V2 (c : Dev nD) : Qf (V2 m) c = kerQ (aX m c) (aWq m c) (abq m c) :=
  funext fun b => funext fun s => funext fun e => V2_q m c b s e
theorem Kf_V2 (c : Dev nD) : Kf (V2 m) c = lin (aX m c) (aWk m c) (abk m c) :=
  funext fun b => funext fun s => funext fun e => V2_k m c b s e

theorem numAll_V2 (c : Dev nD) : numAll (V2 m) c = kerNumer (aX m c) (aWq m c) (abq m c) (aWk m c) (abk m c) := by
  show numer (dots (Qf (V2 m) c) (Kf (V2 m) c)) (colFold (dots (Qf (V2 m) c) (Kf (V2 m) c))) = _
  rw [Qf_V2, Kf_V2]
  rfl

theorem V3_p (c : Dev nD) (b : Fin 8) (i j : Fin 2048) :
    (V3 m c main_v11_1 : S8x2048x2048.Idx → EReal) (ix3 b i j) = kerNumer (aX m c) (aWq m c) (abq m c) (aWk m c) (abk m c) b i j := by
  refine (congrFun (W3_arr m c 3) (ix3 b i j)).trans ((final1_3 (V2 m) c b i j).trans ?_)
  rw [numAll_V2]

theorem V3_invz (c : Dev nD) (b : Fin 8) (j : Fin 2048) :
    (V3 m c main_v11_0 : S8x1x2048.Idx → EReal) (ix3 b (0 : Fin 1) j) = kerInvZ (aX m c) (aWq m c) (abq m c) (aWk m c) (abk m c) b j := by
  refine (congrFun (W3_arr m c 2) (ix3 b (0 : Fin 1) j)).trans ((final1_2 (V2 m) c b j).trans ?_)
  rw [numAll_V2]
  rfl

theorem V3_v (c : Dev nD) (b : Fin 8) (s : Fin 2048) (e : Fin 1024) :
    (V3 m c main_v10_2 : S8x2048x1024.Idx → EReal) (ix3 b s e) = lin (aX m c) (aWv m c) (abv m c) b s e := by
  have h : V3 m c main_v10_2 = V2 m c main_v10_2 := W3_of_ne m c main_v10_2 (by decide)
  rw [h]
  exact V2_v m c b s e

/-! ## After region 2: the two results -/

/-- The weights array (the second result) at the end of the run. -/
theorem result_weights (c : Dev nD) (b : Fin 8) (i j : Fin 2048) :
    (W4 m c (Proc.devRef .tc main_v12_1) : S8x2048x2048.Idx → EReal) (ix3 b i j)
      = kerWeights (aX m c) (aWq m c) (abq m c) (aWk m c) (abk m c) b i j := by
  refine (congrFun (W4_arr m c 4) (ix3 b i j)).trans ((final2_4 (V3 m) c b i j).trans ?_)
  unfold kerWeights
  exact congr (congrArg HMul.hMul (V3_p m c b i j)) (V3_invz m c b j)

/-- The output array (the first result) at the end of the run. -/
theorem result_out (c : Dev nD) (b : Fin 8) (i : Fin 2048) (d : Fin 1024) :
    (W4 m c (Proc.devRef .tc main_v12_0) : S8x2048x1024.Idx → EReal) (ix3 b i d)
      = kerOut (aX m c) (aWq m c) (abq m c) (aWk m c) (abk m c) (aWv m c) (abv m c) b i d := by
  have h3 : (∑ j : Fin 2048, ((numerIn (V3 m) c (ix3 b i j) : EReal) * (invIn (V3 m) c (ix3 b (0 : Fin 1) j) : EReal))
        * (valuesIn (V3 m) c (ix3 b j d) : EReal))
      = kerOut (aX m c) (aWq m c) (abq m c) (aWk m c) (abk m c) (aWv m c) (abv m c) b i d := by
    unfold kerOut mix kerWeights
    exact Finset.sum_congr rfl fun j _ =>
      congr (congrArg HMul.hMul (congr (congrArg HMul.hMul (V3_p m c b i j)) (V3_invz m c b j))) (V3_v m c b j d)
  exact (congrFun (W4_arr m c 3) (ix3 b i d)).trans ((final2_3 (V3 m) c b i d).trans h3)

end Cert.KernelIdeal.Gen

end
-- ==== Proof.RefSpecProj.lean ====
/-
  The reference's three linear projections read at an index: each is the specification's Linear layer
  y[b,s,e] = (sum over d of X[b,s,d] W[e,d]) + bias[e] of the coordinate functions of its argument arrays.
-/
import proofs.«150409_j20710332301555_2_alg».proof.Proof.Spec
import proofs.«150409_j20710332301555_2_alg».proof.Proof.Gen.ReferenceIdeal.Read

noncomputable section

namespace Cert.Attn.Ref

open Cert.ReferenceIdeal Cert.ReferenceIdeal.Read Idealize.ShloMosaic Idealize.ShloMosaic.ValueIdx

/-- The activations array as a function of its three coordinates. -/
abbrev actOf (x : (⟨S8x2048x1024, .f32⟩ : BufTy).Contents (Elt Ideal)) : Act := fun b s d => x (ix3 b s d)
/-- A weight matrix as a function of its two coordinates. -/
abbrev matOf (w : (⟨S1024x1024, .f32⟩ : BufTy).Contents (Elt Ideal)) : Mat := fun e d => w (ix2 e d)
/-- A bias vector as a function of its coordinate. -/
abbrev biasOf (v : (⟨S1024, .f32⟩ : BufTy).Contents (Elt Ideal)) : Bias := fun e => v (ix1 e)

/-- The query projection: a contraction of X with Wq over the feature axis plus the broadcast bias. -/
theorem proj_q (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (b : Fin 8) (s : Fin 2048) (e : Fin 1024) :
    val_main_v3 (F := Ideal) x0 x1 x2 (ix3 b s e) = lin (actOf x0) (matOf x1) (biasOf x2) b s e := by
  have hl : ∀ k : Fin 1024, lidx_main_v0 (ix3 b s e) k = ix3 b s k := fun k =>
    funext fun a => by match a with | ⟨0, _⟩ => rfl | ⟨1, _⟩ => rfl | ⟨2, _⟩ => rfl
  have hr : ∀ k : Fin 1024, ridx_main_v0 (ix3 b s e) k = ix2 e k := fun k =>
    funext fun a => by match a with | ⟨0, _⟩ => rfl | ⟨1, _⟩ => rfl
  have hb : idx_main_v1 (idx_main_v2 (ix3 b s e)) = ix1 e :=
    funext fun a => by match a with | ⟨0, _⟩ => rfl
  rw [val_main_v3_apply, val_main_v0_apply, val_main_v2_apply, val_main_v1_apply]
  simp only [hl, hr, hb, Ideal.addf_def]
  rfl

/-- The key projection. -/
theorem proj_k (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) (e : Fin 1024) :
    val_main_v7 (F := Ideal) x0 x3 x4 (ix3 b s e) = lin (actOf x0) (matOf x3) (biasOf x4) b s e := by
  have hl : ∀ k : Fin 1024, lidx_main_v4 (ix3 b s e) k = ix3 b s k := fun k =>
    funext fun a => by match a with | ⟨0, _⟩ => rfl | ⟨1, _⟩ => rfl | ⟨2, _⟩ => rfl
  have hr : ∀ k : Fin 1024, ridx_main_v4 (ix3 b s e) k = ix2 e k := fun k =>
    funext fun a => by match a with | ⟨0, _⟩ => rfl | ⟨1, _⟩ => rfl
  have hb : idx_main_v5 (idx_main_v6 (ix3 b s e)) = ix1 e :=
    funext fun a => by match a with | ⟨0, _⟩ => rfl
  rw [val_main_v7_apply, val_main_v4_apply, val_main_v6_apply, val_main_v5_apply]
  simp only [hl, hr, hb, Ideal.addf_def]
  rfl

/-- The value projection. -/
theorem proj_v (x0 : (⟨S8x2048x1024, .f32⟩ : BufTy).Contents (Elt Ideal)) (x5 : (⟨S1024x1024, .f32⟩ : BufTy).Contents (Elt Ideal))
    (x6 : (⟨S1024, .f32⟩ : BufTy).Contents (Elt Ideal)) (b : Fin 8) (s : Fin 2048) (e : Fin 1024) :
    val_main_v11 (F := Ideal) x0 x5 x6 (ix3 b s e) = lin (actOf x0) (matOf x5) (biasOf x6) b s e := by
  have hl : ∀ k : Fin 1024, lidx_main_v8 (ix3 b s e) k = ix3 b s k := fun k =>
    funext fun a => by match a with | ⟨0, _⟩ => rfl | ⟨1, _⟩ => rfl | ⟨2, _⟩ => rfl
  have hr : ∀ k : Fin 1024, ridx_main_v8 (ix3 b s e) k = ix2 e k := fun k =>
    funext fun a => by match a with | ⟨0, _⟩ => rfl | ⟨1, _⟩ => rfl
  have hb : idx_main_v9 (idx_main_v10 (ix3 b s e)) = ix1 e :=
    funext fun a => by match a with | ⟨0, _⟩ => rfl
  rw [val_main_v11_apply, val_main_v8_apply, val_main_v10_apply, val_main_v9_apply]
  simp only [hl, hr, hb, Ideal.addf_def]
  rfl

end Cert.Attn.Ref

end
-- ==== Proof.RefSpec.lean ====
/-
  The reference's softmax over the query axis read at an index, operation by operation: the scaled scores, the
  column maximum (a fold of max over the queries from the word of -inf, then one more max with that word), the
  numerator exp (score - maximum), its column sum from the word of 0.0, and the quotient. Each stage is the
  specification's function of the coordinate functions of the argument arrays.
-/
import proofs.«150409_j20710332301555_2_alg».proof.Proof.RefSpecProj
import Idealize.ShloMosaic.PureOps.Reduce

noncomputable section

namespace Cert.Attn.Ref

open Cert.ReferenceIdeal Cert.ReferenceIdeal.Read Idealize.ShloMosaic Idealize.ShloMosaic.ValueIdx

/-- The scores: the contraction of the query and key projections over the feature axis, divided by sqrt 1024. -/
theorem scores_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v15 (F := Ideal) x0 x1 x2 x3 x4 (ix3 b i j) = refScores (actOf x0) (matOf x1) (biasOf x2) (matOf x3) (biasOf x4) b i j := by
  have hl : ∀ k : Fin 1024, lidx_main_v12 (ix3 b i j) k = ix3 b i k := fun k => funext fun a => by match a with | ⟨0, _⟩ => rfl | ⟨1, _⟩ => rfl | ⟨2, _⟩ => rfl
  have hr : ∀ k : Fin 1024, ridx_main_v12 (ix3 b i j) k = ix3 b j k := fun k => funext fun a => by match a with | ⟨0, _⟩ => rfl | ⟨1, _⟩ => rfl | ⟨2, _⟩ => rfl
  rw [val_main_v15_apply, val_main_v12_apply, val_main_v14_apply, val_main_v13_apply, val_main_cst_apply]
  simp only [hl, hr, proj_q, proj_k, Ideal.hostDivf_def, Ideal.hostUnary_sqrt_def, Ideal.ofBits_def]
  rfl

/-- The index over (b,j) with the query coordinate k put back on axis 1 is (b,k,j). -/
theorem lift_col (h : S8x2048x2048.Reduces [1] S8x2048) (b : Fin 8) (j : Fin 2048) (k : Fin (S8x2048x2048.size 1)) :
    h.lift (ix2 b j) k = ix3 b (⟨k.val, k.isLt⟩ : Fin 2048) j := by
  funext c; apply Fin.ext
  fin_cases c <;> rfl

/-- The reduce with a maximum body over axis 1, at (b,j), is the fold of max over the queries of column j from the
    word of -inf. -/
theorem colmax_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (j : Fin 2048) :
    val_main_v16 (F := Ideal) x0 x1 x2 x3 x4 (ix2 b j)
      = colFold (fun b i j => val_main_v15 (F := Ideal) x0 x1 x2 x3 x4 (ix3 b i j)) b j := by
  unfold val_main_v16
  generalize val_main_v15 (F := Ideal) x0 x1 x2 x3 x4 = y
  have h : S8x2048x2048.Reduces [1] S8x2048 := by decide
  refine (Host.reduce_eq_fold_single (α := Ideal .f32) (FloatOps.maximumf (F := Ideal) (φ := .f32)) y
    (val_main_cst_0 (F := Ideal)) Gen.reducesTo_S8x2048x2048_S8x2048_d1 h Gen.h_S_ (ix2 b j)).trans ?_
  have hf : (y ∘ h.lift (ix2 b j)) = fun k : Fin 2048 => y (ix3 b k j) :=
    funext fun k => congrArg y (lift_col h b j k)
  exact congrArg (fun f => Finset.fold max cNegInf f (Finset.univ : Finset (Fin 2048))) hf

/-- The column maximum: one more max with the word of -inf. -/
theorem refmax_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (j : Fin 2048) :
    val_main_v18 (F := Ideal) x0 x1 x2 x3 x4 (ix2 b j) = refMax (refScores (actOf x0) (matOf x1) (biasOf x2) (matOf x3) (biasOf x4)) b j := by
  rw [val_main_v18_apply, val_main_v17_apply, val_main_cst_1_apply, colmax_eq]
  simp only [scores_eq, Ideal.maximumf_def, Ideal.ofBits_def]
  rfl

/-- The numerator exp (score - column maximum). -/
theorem numer_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v22 (F := Ideal) x0 x1 x2 x3 x4 (ix3 b i j) = refNumer (actOf x0) (matOf x1) (biasOf x2) (matOf x3) (biasOf x4) b i j := by
  have hm : idx_main_v19 (idx_main_v20 (ix3 b i j)) = ix2 b j := funext fun a => by match a with | ⟨0, _⟩ => rfl | ⟨1, _⟩ => rfl
  rw [val_main_v22_apply, val_main_v21_apply, val_main_v20_apply, val_main_v19_apply, hm, refmax_eq, scores_eq]
  simp only [Ideal.hostUnary_exp_def, Ideal.subf_def]
  rfl

/-- The column sum of the numerators over the queries, from the word of 0.0. -/
theorem colsum_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (j : Fin 2048) :
    val_main_v23 (F := Ideal) x0 x1 x2 x3 x4 (ix2 b j) = cZero + colSum (refNumer (actOf x0) (matOf x1) (biasOf x2) (matOf x3) (biasOf x4)) b j := by
  have hk : ∀ k : Fin 2048, idx_main_v23 (ix2 b j) k = ix3 b k j := fun k => funext fun a => by match a with | ⟨0, _⟩ => rfl | ⟨1, _⟩ => rfl | ⟨2, _⟩ => rfl
  rw [val_main_v23_apply, val_main_cst_2_apply]
  simp only [hk, numer_eq, Ideal.ofBits_def]
  rfl

/-- The attention weights: numerator over column sum. -/
theorem weights_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v26 (F := Ideal) x0 x1 x2 x3 x4 (ix3 b i j) = refWeights (actOf x0) (matOf x1) (biasOf x2) (matOf x3) (biasOf x4) b i j := by
  have hm : idx_main_v24 (idx_main_v25 (ix3 b i j)) = ix2 b j := funext fun a => by match a with | ⟨0, _⟩ => rfl | ⟨1, _⟩ => rfl
  rw [val_main_v26_apply, val_main_v25_apply, val_main_v24_apply, hm, colsum_eq, numer_eq]
  simp only [Ideal.hostDivf_def]
  rfl

/-- The attention output: the weights contracted with the value projection over the keys. -/
theorem out_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 8) (i : Fin 2048) (d : Fin 1024) :
    val_main_v27 (F := Ideal) x0 x1 x2 x3 x4 x5 x6 (ix3 b i d)
      = refOut (actOf x0) (matOf x1) (biasOf x2) (matOf x3) (biasOf x4) (matOf x5) (biasOf x6) b i d := by
  have hl : ∀ k : Fin 2048, lidx_main_v27 (ix3 b i d) k = ix3 b i k := fun k => funext fun a => by match a with | ⟨0, _⟩ => rfl | ⟨1, _⟩ => rfl | ⟨2, _⟩ => rfl
  have hr : ∀ k : Fin 2048, ridx_main_v27 (ix3 b i d) k = ix3 b k d := fun k => funext fun a => by match a with | ⟨0, _⟩ => rfl | ⟨1, _⟩ => rfl | ⟨2, _⟩ => rfl
  rw [val_main_v27_apply]
  simp only [hl, hr, weights_eq, proj_v]
  rfl

/-- The reference's second result is the specification's attention weights of the coordinate functions of its
    arguments. -/
theorem ref_weights (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    Cert.ReferenceIdeal.Read.val_main_v26 (F := Ideal) x0 x1 x2 x3 x4 (ix3 b i j)
      = Cert.Attn.refWeights (fun b s d => x0 (ix3 b s d)) (fun e d => x1 (ix2 e d)) (fun e => x2 (ix1 e))
          (fun e d => x3 (ix2 e d)) (fun e => x4 (ix1 e)) b i j :=
  weights_eq x0 x1 x2 x3 x4 b i j

/-- The reference's first result is the specification's attention output of the coordinate functions of its
    arguments. -/
theorem ref_out (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 8) (i : Fin 2048) (d : Fin 1024) :
    Cert.ReferenceIdeal.Read.val_main_v27 (F := Ideal) x0 x1 x2 x3 x4 x5 x6 (ix3 b i d)
      = Cert.Attn.refOut (fun b s d => x0 (ix3 b s d)) (fun e d => x1 (ix2 e d)) (fun e => x2 (ix1 e))
          (fun e d => x3 (ix2 e d)) (fun e => x4 (ix1 e)) (fun e d => x5 (ix2 e d)) (fun e => x6 (ix1 e)) b i d :=
  out_eq x0 x1 x2 x3 x4 x5 x6 b i d

end Cert.Attn.Ref

end
-- ==== Proof.AlgebraConsts.lean ====
/-
  The five float words of the specification, each evaluated once as the extended real it denotes:
  0x3D000000 is 1/32, 0x44800000 is 1024 (whose square root is 32), 0xFF800000 is -inf (the bottom element),
  0x00000000 is 0 and 0x3F800000 is 1.
-/
import proofs.«150409_j20710332301555_2_alg».proof.Proof.Spec

noncomputable section

namespace Cert.Attn

open Idealize.ShloMosaic

/-- The score scale is the real number 1/32. -/
theorem cScale_eq : cScale = (((1 : ℝ) / 32 : ℝ) : EReal) := by
  simp [Ideal.ofBits, Ideal.ieee, -EReal.coe_mul]; norm_num

/-- The feature dimension is the real number 1024. -/
theorem cDim_eq : cDim = ((1024 : ℝ) : EReal) := by
  simp [Ideal.ofBits, Ideal.ieee, -EReal.coe_mul]; norm_num

/-- The square root of the feature dimension is the real number 32. -/
theorem sqrt_cDim_eq : Ideal.sqrt cDim = ((32 : ℝ) : EReal) := by
  rw [cDim_eq, Ideal.sqrt_coe, if_neg (by norm_num)]
  congr 1
  rw [show (1024 : ℝ) = 32 * 32 by norm_num]
  exact Real.sqrt_mul_self (by norm_num)

/-- The word of -inf is the bottom element. -/
theorem cNegInf_eq : cNegInf = ⊥ := by
  simp [Ideal.ofBits, Ideal.ieee]

/-- The word of 0.0 is zero. -/
theorem cZero_eq : cZero = 0 := by
  simp [Ideal.ofBits, Ideal.ieee]

/-- The word of 1.0 is one. -/
theorem cOne_eq : cOne = 1 := by
  simp [Ideal.ofBits, Ideal.ieee, -EReal.coe_mul]; norm_num

end Cert.Attn

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Algebra.lean ====
/-
  The two arrangements of the specification agree on real inputs.

  Every input entry is a real number, so every intermediate value is one: the projections, the scores, the column
  maxima (a fold of max from the bottom element over a nonempty set of reals), the exponentials and the column sums.
  The kernel multiplies 1/32 into the query weights and bias, the reference divides the contraction by sqrt 1024 = 32:
  the same real number, by distributivity in the reals. The maximum of the bottom element with a fold is the fold.
  The column sum z is a sum of exponentials over a nonempty index, hence a positive real; so 0 + z = z, division by z
  is multiplication by the real 1/z, and p * (1 * (1/z)) = p * (1/z).
-/
import proofs.«150409_j20710332301555_2_alg».proof.Proof.AlgebraConsts
import proofs.«150409_j20710332301555_2_alg».proof.Proof.LibFinite

noncomputable section

namespace Cert.Attn

open Idealize.ShloMosaic
open Cert.LibFinite (coe_sum)

/-! ## Real coordinates read as extended reals -/

/-- A family of reals with one index, read in the extended reals. -/
def up1 {α : Type} (f : α → ℝ) : α → EReal := fun a => (f a : EReal)
/-- A family of reals with two indices, read in the extended reals. -/
def up2 {α β : Type} (f : α → β → ℝ) : α → β → EReal := fun a b => (f a b : EReal)
/-- A family of reals with three indices, read in the extended reals. -/
def up3 {α β γ : Type} (f : α → β → γ → ℝ) : α → β → γ → EReal := fun a b c => (f a b c : EReal)

theorem exists_up1 {α : Type} (F : α → EReal) (h : ∀ a, F a ≠ ⊤ ∧ F a ≠ ⊥) : ∃ f, F = up1 f :=
  ⟨fun a => (F a).toReal, by funext a; exact (EReal.coe_toReal (h a).1 (h a).2).symm⟩

theorem exists_up2 {α β : Type} (F : α → β → EReal) (h : ∀ a b, F a b ≠ ⊤ ∧ F a b ≠ ⊥) : ∃ f, F = up2 f :=
  ⟨fun a b => (F a b).toReal, by funext a b; exact (EReal.coe_toReal (h a b).1 (h a b).2).symm⟩

theorem exists_up3 {α β γ : Type} (F : α → β → γ → EReal) (h : ∀ a b c, F a b c ≠ ⊤ ∧ F a b c ≠ ⊥) :
    ∃ f, F = up3 f :=
  ⟨fun a b c => (F a b c).toReal, by funext a b c; exact (EReal.coe_toReal (h a b c).1 (h a b c).2).symm⟩

/-! ## The projections and the scores over the reals -/

/-- The Linear layer over the reals. -/
def rlin (x : Fin 8 → Fin 2048 → Fin 1024 → ℝ) (w : Fin 1024 → Fin 1024 → ℝ) (b : Fin 1024 → ℝ) :
    Fin 8 → Fin 2048 → Fin 1024 → ℝ :=
  fun bb s e => (∑ d : Fin 1024, x bb s d * w e d) + b e

/-- The contraction of queries with keys over the reals. -/
def rdots (q k : Fin 8 → Fin 2048 → Fin 1024 → ℝ) : Fin 8 → Fin 2048 → Fin 2048 → ℝ :=
  fun bb i j => ∑ e : Fin 1024, q bb i e * k bb j e

/-- The scaled scores over the reals. -/
def rscores (x : Fin 8 → Fin 2048 → Fin 1024 → ℝ) (wq : Fin 1024 → Fin 1024 → ℝ) (bq : Fin 1024 → ℝ)
    (wk : Fin 1024 → Fin 1024 → ℝ) (bk : Fin 1024 → ℝ) : Fin 8 → Fin 2048 → Fin 2048 → ℝ :=
  fun bb i j => rdots (rlin x wq bq) (rlin x wk bk) bb i j * (1 / 32)

theorem lin_up (x : Fin 8 → Fin 2048 → Fin 1024 → ℝ) (w : Fin 1024 → Fin 1024 → ℝ) (b : Fin 1024 → ℝ) :
    lin (up3 x) (up2 w) (up1 b) = up3 (rlin x w b) := by
  funext bb s e
  simp only [lin, up3, up2, up1, rlin, EReal.coe_add, coe_sum, EReal.coe_mul]

theorem dots_up (q k : Fin 8 → Fin 2048 → Fin 1024 → ℝ) : dots (up3 q) (up3 k) = up3 (rdots q k) := by
  funext bb i j
  simp only [dots, up3, rdots, coe_sum, EReal.coe_mul]

/-- The kernel's query projection is the real projection times 1/32. -/
theorem kerQ_up (x : Fin 8 → Fin 2048 → Fin 1024 → ℝ) (w : Fin 1024 → Fin 1024 → ℝ) (b : Fin 1024 → ℝ) :
    kerQ (up3 x) (up2 w) (up1 b) = up3 (fun bb s e => rlin x w b bb s e * (1 / 32)) := by
  funext bb s e
  have hreal : rlin x w b bb s e * (1 / 32)
      = (∑ d : Fin 1024, x bb s d * (w e d * (1 / 32))) + b e * (1 / 32) := by
    unfold rlin
    rw [add_mul, Finset.sum_mul]
    congr 1
    exact Finset.sum_congr rfl (fun d _ => by ring)
  simp only [up3]
  rw [hreal]
  simp only [kerQ, up3, up2, up1, cScale_eq, EReal.coe_add, coe_sum, EReal.coe_mul]

/-- The reference's scores on real inputs: the real contraction times 1/32. -/
theorem refScores_up (x : Fin 8 → Fin 2048 → Fin 1024 → ℝ) (wq : Fin 1024 → Fin 1024 → ℝ) (bq : Fin 1024 → ℝ)
    (wk : Fin 1024 → Fin 1024 → ℝ) (bk : Fin 1024 → ℝ) :
    refScores (up3 x) (up2 wq) (up1 bq) (up2 wk) (up1 bk) = up3 (rscores x wq bq wk bk) := by
  funext bb i j
  unfold refScores
  rw [lin_up, lin_up, dots_up, sqrt_cDim_eq, Ideal.div_coe (by norm_num : (32 : ℝ) ≠ 0)]
  simp only [up3, rscores, EReal.coe_mul]

/-- The kernel's scores on real inputs: the same real number. -/
theorem kerScores_up (x : Fin 8 → Fin 2048 → Fin 1024 → ℝ) (wq : Fin 1024 → Fin 1024 → ℝ) (bq : Fin 1024 → ℝ)
    (wk : Fin 1024 → Fin 1024 → ℝ) (bk : Fin 1024 → ℝ) :
    kerScores (up3 x) (up2 wq) (up1 bq) (up2 wk) (up1 bk) = up3 (rscores x wq bq wk bk) := by
  unfold kerScores
  rw [kerQ_up, lin_up, dots_up]
  funext bb i j
  simp only [up3]
  congr 1
  simp only [rscores, rdots]
  rw [Finset.sum_mul]
  exact Finset.sum_congr rfl (fun e _ => by ring)

/-! ## The softmax over a column of real scores -/

/-- The fold of max from -inf over a nonempty column of reals is a real. -/
theorem colFold_up (s : Fin 8 → Fin 2048 → Fin 2048 → ℝ) :
    ∃ m : Fin 8 → Fin 2048 → ℝ, colFold (up3 s) = up2 m := by
  apply exists_up2
  intro bb j
  simp only [colFold, cNegInf_eq, up3]
  constructor
  · exact ((Finset.fold_max_lt ⊤).mpr ⟨bot_lt_top, fun i _ => EReal.coe_lt_top _⟩).ne
  · exact ((Finset.lt_fold_max ⊥).mpr (Or.inr ⟨(0 : Fin 2048), Finset.mem_univ _, EReal.bot_lt_coe _⟩)).ne'

/-- The maximum of -inf with anything is that thing. -/
theorem refMax_eq (sc : Sq) : refMax sc = colFold sc := by
  funext bb j
  unfold refMax
  rw [cNegInf_eq]
  exact max_bot_left _

theorem numer_up (s : Fin 8 → Fin 2048 → Fin 2048 → ℝ) (m : Fin 8 → Fin 2048 → ℝ) :
    numer (up3 s) (up2 m) = up3 (fun bb i j => Real.exp (s bb i j - m bb j)) := by
  funext bb i j
  simp only [numer, up3, up2]
  rw [← EReal.coe_sub, Ideal.exp_coe]

theorem colSum_up (p : Fin 8 → Fin 2048 → Fin 2048 → ℝ) :
    colSum (up3 p) = up2 (fun bb j => ∑ i : Fin 2048, p bb i j) := by
  funext bb j
  simp only [colSum, up3, up2, coe_sum]

/-- On real scores, multiplying by the once-inverted column sum is dividing by 0 + the column sum. -/
theorem weights_of_scores (s : Fin 8 → Fin 2048 → Fin 2048 → ℝ) :
    (fun bb i j => numer (up3 s) (colFold (up3 s)) bb i j
        * Ideal.div cOne (colSum (numer (up3 s) (colFold (up3 s))) bb j))
      = (fun bb i j => Ideal.div (numer (up3 s) (refMax (up3 s)) bb i j)
        (cZero + colSum (numer (up3 s) (refMax (up3 s))) bb j)) := by
  obtain ⟨m, hm⟩ := colFold_up s
  rw [refMax_eq, hm, numer_up, colSum_up]
  funext bb i j
  simp only [up3, up2]
  have hz : (∑ i : Fin 2048, Real.exp (s bb i j - m bb j)) ≠ 0 :=
    (Finset.sum_pos (fun i _ => Real.exp_pos _) Finset.univ_nonempty).ne'
  rw [cOne_eq, cZero_eq, zero_add, Ideal.div_coe hz, Ideal.div_coe hz, one_mul]

/-! ## The two results -/

/-- The kernel's attention weights are the reference's, on real inputs. -/
theorem kerWeights_eq_refWeights (X : Act) (Wq : Mat) (bq : Bias) (Wk : Mat) (bk : Bias)
    (hX : FiniteAct X) (hWq : FiniteMat Wq) (hbq : FiniteBias bq) (hWk : FiniteMat Wk) (hbk : FiniteBias bk) :
    kerWeights X Wq bq Wk bk = refWeights X Wq bq Wk bk := by
  obtain ⟨x, rfl⟩ := exists_up3 X hX
  obtain ⟨wq, rfl⟩ := exists_up2 Wq hWq
  obtain ⟨q, rfl⟩ := exists_up1 bq hbq
  obtain ⟨wk, rfl⟩ := exists_up2 Wk hWk
  obtain ⟨k, rfl⟩ := exists_up1 bk hbk
  unfold kerWeights refWeights kerInvZ kerNumer refNumer
  rw [kerScores_up, refScores_up]
  exact weights_of_scores _

/-- The kernel's attention output is the reference's, on real inputs. -/
theorem kerOut_eq_refOut (X : Act) (Wq : Mat) (bq : Bias) (Wk : Mat) (bk : Bias) (Wv : Mat) (bv : Bias)
    (hX : FiniteAct X) (hWq : FiniteMat Wq) (hbq : FiniteBias bq) (hWk : FiniteMat Wk) (hbk : FiniteBias bk)
    (_hWv : FiniteMat Wv) (_hbv : FiniteBias bv) :
    kerOut X Wq bq Wk bk Wv bv = refOut X Wq bq Wk bk Wv bv := by
  unfold kerOut refOut
  rw [kerWeights_eq_refWeights X Wq bq Wk bk hX hWq hbq hWk hbk]

end Cert.Attn

end
-- ==== Proof.Finite.lean ====
/-
  From the precondition to finiteness. The precondition is the conjunction, over the seven inputs, of
  "every entry x has |x| < +inf"; it is stated as one word equal to 1. Splitting the conjunction and reading each
  "for all" back at an index gives, for every entry of every input, that it is neither infinity: a real number.
-/
import proofs.«150409_j20710332301555_2_alg».proof.Pre_finite_inputs
import proofs.«150409_j20710332301555_2_alg».proof.Proof.LibFinite
import proofs.«150409_j20710332301555_2_alg».proof.Proof.Spec
import Idealize.ShloMosaic.Lib.ReduceAll
import Idealize.ShloMosaic.Lib.ValueIdx

noncomputable section

namespace Cert.Attn

open Idealize.ShloMosaic Cert.Pre_finite_inputs

/-- The rank-0 shape has one index. -/
instance : Subsingleton S_.Idx := ⟨fun a b => funext fun d => d.elim0⟩

/-- One conjunct read back: if "all entries have |x| < +inf" is 1, every entry is a real number. -/
theorem finite_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf x) (broadcastInDim s ![] hb (constant S_ .f32 0x7F800000#32)))
        (constantI S_ 1 1#1) hr hu j = 1#1) (i : s.Idx) : x i ≠ ⊤ ∧ x i ≠ ⊥ :=
  Cert.LibFinite.finite_of_abs_lt (x i) (Host.reduce_andi_all _ _ hr hu j e i)

variable [Facts]

/-- The precondition gives that every entry of every input is a real number. -/
theorem finite_of_pre (a0 : FVec Ideal S8x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) := by
  have h0 := congrFun h ValueIdx.ix0
  dsimp only [Cert.Pre_finite_inputs.fn, Cert.Pre_finite_inputs.fn_part1, Idealize.ShloMosaic.andi] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨finite_of_all a0 _ _ _ _ e0, finite_of_all a1 _ _ _ _ e1, finite_of_all a2 _ _ _ _ e2,
    finite_of_all a3 _ _ _ _ e3, finite_of_all a4 _ _ _ _ e4, finite_of_all a5 _ _ _ _ e5,
    finite_of_all a6 _ _ _ _ e6⟩

/-- An activation array of real entries, read by its three coordinates. -/
theorem finiteAct_of (a : FVec Ideal S8x2048x1024 .f32) (h : ∀ i, a i ≠ ⊤ ∧ a i ≠ ⊥) :
    FiniteAct (fun b s d => a (ValueIdx.ix3 b s d)) := fun b s d => h (ValueIdx.ix3 b s d)

/-- A weight matrix of real entries, read by its two coordinates. -/
theorem finiteMat_of (a : FVec Ideal S1024x1024 .f32) (h : ∀ i, a i ≠ ⊤ ∧ a i ≠ ⊥) :
    FiniteMat (fun e d => a (ValueIdx.ix2 e d)) := fun e d => h (ValueIdx.ix2 e d)

/-- A bias vector of real entries, read by its coordinate. -/
theorem finiteBias_of (a : FVec Ideal S1024 .f32) (h : ∀ i, a i ≠ ⊤ ∧ a i ≠ ⊥) :
    FiniteBias (fun e => a (ValueIdx.ix1 e)) := fun e => h (ValueIdx.ix1 e)

end Cert.Attn

end
-- ==== Proof.lean ====
/-
  Single-head attention with the softmax taken over the query axis: a Pallas implementation in three pipelined kernels
  (projection of the activations against the concatenated, pre-scaled weights; per key column the softmax numerators
  exp(score − column maximum) and the reciprocal of their sum; numerators times reciprocals, and their product with the
  values) against the plain einsum / jax.nn.softmax reference, equal as extended reals under finite inputs.

  The three frame claims: the kernel programs' by the run of @main as segments (the host operations, then the three
  regions), each argument's buffer read back through the segment boundaries to the launch memory; the reference's by
  its run with the results dropped. The idealization rewrote nothing, so there is nothing to preserve.

  The value claim: the kernel program's two result arrays end, entry by entry, at the specification's kernel arrangement
  of the argument arrays (the boundary contents walked forwards through the host operations and the three regions); the
  reference's end at the specification's reference arrangement (its operations read one at a time); the precondition
  makes every input entry a real number, and over the reals the two arrangements agree: the factor 1/32 folded into the
  query weights and bias comes out of both sums and is the reference's division by sqrt 1024 = 32, the maximum against
  −∞ is the maximum, the column sum is a positive real so multiplying by its reciprocal is dividing by it.
-/
import proofs.«150409_j20710332301555_2_alg».proof.Defs
import proofs.«150409_j20710332301555_2_alg».proof.Proof.Gen.Kernel
import proofs.«150409_j20710332301555_2_alg».proof.Proof.Gen.KernelIdeal
import proofs.«150409_j20710332301555_2_alg».proof.Proof.Gen.ReferenceIdeal
import proofs.«150409_j20710332301555_2_alg».proof.Proof.Gen.Pre_finite_inputs
import proofs.«150409_j20710332301555_2_alg».proof.Proof.Gen.ReferenceIdeal.Read
import proofs.«150409_j20710332301555_2_alg».proof.Proof.BitsFrames
import proofs.«150409_j20710332301555_2_alg».proof.Proof.Frames
import proofs.«150409_j20710332301555_2_alg».proof.Proof.Chain
import proofs.«150409_j20710332301555_2_alg».proof.Proof.RefSpec
import proofs.«150409_j20710332301555_2_alg».proof.Proof.Algebra
import proofs.«150409_j20710332301555_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.Attn

/-! ## The frames -/

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-! ## The value claim -/

section Value

open Cert.KernelIdeal Cert.KernelIdeal.Gen

variable (m : (ℓ : Loc Cert.KernelIdeal.nD Cert.KernelIdeal.τ Cert.KernelIdeal.sig) → Buf (Elt Ideal) ℓ)

/-- Under the precondition the kernel arrangement of the arguments is the reference arrangement. -/
theorem arrangements (hpre : Cert.Pre_KernelIdeal m) (c : Dev Cert.KernelIdeal.nD) :
    kerWeights (aX m c) (aWq m c) (abq m c) (aWk m c) (abk m c) = refWeights (aX m c) (aWq m c) (abq m c) (aWk m c) (abk m c)
    ∧ kerOut (aX m c) (aWq m c) (abq m c) (aWk m c) (abk m c) (aWv m c) (abv m c)
        = refOut (aX m c) (aWq m c) (abq m c) (aWk m c) (abk m c) (aWv m c) (abv m c) := by
  obtain ⟨f0, f1, f2, f3, f4, f5, f6⟩ := Cert.Attn.finite_of_pre _ _ _ _ _ _ _ (hpre c)
  have hX := Cert.Attn.finiteAct_of _ f0
  have hWq := Cert.Attn.finiteMat_of _ f1
  have hbq := Cert.Attn.finiteBias_of _ f2
  have hWk := Cert.Attn.finiteMat_of _ f3
  have hbk := Cert.Attn.finiteBias_of _ f4
  have hWv := Cert.Attn.finiteMat_of _ f5
  have hbv := Cert.Attn.finiteBias_of _ f6
  exact ⟨kerWeights_eq_refWeights _ _ _ _ _ hX hWq hbq hWk hbk, kerOut_eq_refOut _ _ _ _ _ _ _ hX hWq hbq hWk hbk hWv hbv⟩

end Value

theorem algebraic : Cert.algebraic_KernelIdeal_ReferenceIdeal := by
  intro m ρ m' ρ' hpre hagree
  refine ⟨fun c => Cert.KernelIdeal.Gen.W4 m c (Proc.devRef .tc Cert.KernelIdeal.main_v12_0),
    fun c => Cert.KernelIdeal.Gen.W4 m c (Proc.devRef .tc Cert.KernelIdeal.main_v12_1), ?_, ?_⟩
  · exact (θ_run Cert.KernelIdeal.defs _ _).mono (fun r h c =>
      ⟨h c _ (Cert.KernelIdeal.Gen.mem_uc Cert.KernelIdeal.main_v12_0 (by decide)),
       h c _ (Cert.KernelIdeal.Gen.mem_uc Cert.KernelIdeal.main_v12_1 (by decide)),
       (h c _ (Cert.KernelIdeal.Gen.mem_uc Cert.KernelIdeal.main_arg0 (by decide))).trans (Cert.KernelIdeal.Gen.W4_main_arg0 m c),
       (h c _ (Cert.KernelIdeal.Gen.mem_uc Cert.KernelIdeal.main_arg1 (by decide))).trans (Cert.KernelIdeal.Gen.W4_main_arg1 m c),
       (h c _ (Cert.KernelIdeal.Gen.mem_uc Cert.KernelIdeal.main_arg2 (by decide))).trans (Cert.KernelIdeal.Gen.W4_main_arg2 m c),
       (h c _ (Cert.KernelIdeal.Gen.mem_uc Cert.KernelIdeal.main_arg3 (by decide))).trans (Cert.KernelIdeal.Gen.W4_main_arg3 m c),
       (h c _ (Cert.KernelIdeal.Gen.mem_uc Cert.KernelIdeal.main_arg4 (by decide))).trans (Cert.KernelIdeal.Gen.W4_main_arg4 m c),
       (h c _ (Cert.KernelIdeal.Gen.mem_uc Cert.KernelIdeal.main_arg5 (by decide))).trans (Cert.KernelIdeal.Gen.W4_main_arg5 m c),
       (h c _ (Cert.KernelIdeal.Gen.mem_uc Cert.KernelIdeal.main_arg6 (by decide))).trans (Cert.KernelIdeal.Gen.W4_main_arg6 m c)⟩)
      (Cert.KernelIdeal.Gen.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · -- the attention output
      obtain ⟨h0, h1, h2, h3, h4, h5, h6⟩ := hagree c
      rw [Cert.ReferenceIdeal.Read.val_main_v27_eq, h0, h1, h2, h3, h4, h5, h6]
      funext idx
      obtain ⟨b, i, d, rfl⟩ : ∃ (b : Fin 8) (i : Fin 2048) (d : Fin 1024), idx = ix3 b i d := ⟨idx 0, idx 1, idx 2, eq_ix3 idx⟩
      exact (Cert.Attn.Ref.ref_out _ _ _ _ _ _ _ b i d).trans
        ((congrFun (congrFun (congrFun (arrangements m hpre c).2 b) i) d).symm.trans (Cert.KernelIdeal.Gen.result_out m c b i d).symm)
    · -- the attention weights
      obtain ⟨h0, h1, h2, h3, h4, h5, h6⟩ := hagree c
      rw [Cert.ReferenceIdeal.Read.val_main_v26_eq, h0, h1, h2, h3, h4]
      funext idx
      obtain ⟨b, i, j, rfl⟩ : ∃ (b : Fin 8) (i : Fin 2048) (j : Fin 2048), idx = ix3 b i j := ⟨idx 0, idx 1, idx 2, eq_ix3 idx⟩
      exact (Cert.Attn.Ref.ref_weights _ _ _ _ _ b i j).trans
        ((congrFun (congrFun (congrFun (arrangements m hpre c).1 b) i) j).symm.trans (Cert.KernelIdeal.Gen.result_weights m c b i j).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
